-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_0)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_0) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x50x128 : Shape := ⟨3, ![128, 50, 128]⟩
abbrev S128x32x50x128 : Shape := ⟨4, ![128, 32, 50, 128]⟩
abbrev S128 : Shape := ⟨1, ![128]⟩
abbrev S8x128 : Shape := ⟨2, ![8, 128]⟩
abbrev S8 : Shape := ⟨1, ![8]⟩
abbrev S_ : Shape := ⟨0, ![]⟩

class Facts : Prop where
  bcast_S_S128x50x128 : S_.BroadcastsInDim S128x50x128 (![] : Fin 0 → Fin S128x50x128.rank)
  reducesTo_S128x50x128_S_d0_1_2 : S128x50x128.ReducesTo [0, 1, 2] S_
  h_S_ : 0 < S_.numel
  bcast_S_S128x32x50x128 : S_.BroadcastsInDim S128x32x50x128 (![] : Fin 0 → Fin S128x32x50x128.rank)
  reducesTo_S128x32x50x128_S_d0_1_2_3 : S128x32x50x128.ReducesTo [0, 1, 2, 3] S_
  bcast_S_S8x128 : S_.BroadcastsInDim S8x128 (![] : Fin 0 → Fin S8x128.rank)
  reducesTo_S8x128_S_d0_1 : S8x128.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S128x50x128 .f32) (main_arg1 : FVec F S128x32x50x128 .f32) (main_arg2 : IVec S128 32) (main_arg3 : FVec F S8x128 .f32) (main_arg4 : FVec F S8 .f32) : IVec S_ 1 :=
  let main_v0 : FVec F S128x50x128 .f32 := Host.absf main_arg0
  let main_cst : FVec F S_ .f32 := constant S_ .f32 0x7F800000#32
  let main_v1 : FVec F S128x50x128 .f32 := broadcastInDim S128x50x128 ![] bcast_S_S128x50x128 main_cst
  let main_v2 : IVec S128x50x128 1 := cmpf .olt main_v0 main_v1
  let main_c : IVec S_ 1 := constantI S_ 1 1#1
  let main_v3 : IVec S_ 1 := (fun x v => Host.reduce IntOp.andi x v reducesTo_S128x50x128_S_d0_1_2 h_S_) main_v2 main_c
  let main_v4 : FVec F S128x32x50x128 .f32 := Host.absf main_arg1
  let main_cst_0 : FVec F S_ .f32 := constant S_ .f32 0x7F800000#32
  let main_v5 : FVec F S128x32x50x128 .f32 := broadcastInDim S128x32x50x128 ![] bcast_S_S128x32x50x128 main_cst_0
  let main_v6 : IVec S128x32x50x128 1 := cmpf .olt main_v4 main_v5
  let main_c_1 : IVec S_ 1 := constantI S_ 1 1#1
  let main_v7 : IVec S_ 1 := (fun x v => Host.reduce IntOp.andi x v reducesTo_S128x32x50x128_S_d0_1_2_3 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8 .f32 := Host.absf main_arg4
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S128x50x128 : Shape := ⟨3, ![128, 50, 128]⟩
abbrev S128x32x50x128 : Shape := ⟨4, ![128, 32, 50, 128]⟩
abbrev S128 : Shape := ⟨1, ![128]⟩
abbrev S8x128 : Shape := ⟨2, ![8, 128]⟩
abbrev S8 : Shape := ⟨1, ![8]⟩
abbrev S1 : Shape := ⟨1, ![1]⟩
abbrev S_ : Shape := ⟨0, ![]⟩
abbrev S128x8 : Shape := ⟨2, ![128, 8]⟩
abbrev S128x1600x128 : Shape := ⟨3, ![128, 1600, 128]⟩
abbrev S128x8x1600 : Shape := ⟨3, ![128, 8, 1600]⟩
abbrev S128x1600 : Shape := ⟨2, ![128, 1600]⟩
abbrev S8x50x128 : Shape := ⟨3, ![8, 50, 128]⟩
abbrev S8x1600x128 : Shape := ⟨3, ![8, 1600, 128]⟩
abbrev S8x8x1600 : Shape := ⟨3, ![8, 8, 1600]⟩
abbrev S8x1600 : Shape := ⟨2, ![8, 1600]⟩
abbrev S12800x128 : Shape := ⟨2, ![12800, 128]⟩
abbrev S12800x8 : Shape := ⟨2, ![12800, 8]⟩
abbrev S8x1600x8 : Shape := ⟨3, ![8, 1600, 8]⟩
abbrev S1x1x8 : Shape := ⟨3, ![1, 1, 8]⟩
abbrev S8x8 : Shape := ⟨2, ![8, 8]⟩
abbrev S8x1x8 : Shape := ⟨3, ![8, 1, 8]⟩
abbrev S8x1600x1 : Shape := ⟨3, ![8, 1600, 1]⟩
abbrev S128x32x50 : Shape := ⟨3, ![128, 32, 50]⟩

abbrev nBuf : Space → Nat
  | .hbm => 19
  | .vmem => 10
  | .smem => 0
  | _ => 0

abbrev bufTy : (tb : Table) → Fin (tcTables nBuf tb) → BufTy
  | .hbm, ⟨0, _⟩ => ⟨S128x50x128, .f32⟩
  | .hbm, ⟨1, _⟩ => ⟨S128x32x50x128, .f32⟩
  | .hbm, ⟨2, _⟩ => ⟨S128, .i32⟩
  | .hbm, ⟨3, _⟩ => ⟨S8x128, .f32⟩
  | .hbm, ⟨4, _⟩ => ⟨S8, .f32⟩
  | .hbm, ⟨5, _⟩ => ⟨S1, .i32⟩
  | .hbm, ⟨6, _⟩ => ⟨S_, .i32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8, .f32⟩
  | .hbm, ⟨13, _⟩ => ⟨S8, .f32⟩
  | .hbm, ⟨14, _⟩ => ⟨S128x8, .f32⟩
  | .hbm, ⟨15, _⟩ => ⟨S128x1600x128, .f32⟩
  | .hbm, ⟨16, _⟩ => ⟨S128x8x1600, .f32⟩
  | .hbm, ⟨17, _⟩ => ⟨S128x1600, .f32⟩
  | .hbm, ⟨18, _⟩ => ⟨S128x32x50, .f32⟩
  | .local _ .vmem, ⟨0, _⟩ => ⟨S8x50x128, .f32⟩
  | .local _ .vmem, ⟨1, _⟩ => ⟨S8x50x128, .f32⟩
  | .local _ .vmem, ⟨2, _⟩ => ⟨S8x1600x128, .f32⟩
  | .local _ .vmem, ⟨3, _⟩ => ⟨S8x1600x128, .f32⟩
  | .local _ .vmem, ⟨4, _⟩ => ⟨S128x8, .f32⟩
  | .local _ .vmem, ⟨5, _⟩ => ⟨S8, .f32⟩
  | .local _ .vmem, ⟨6, _⟩ => ⟨S8x8x1600, .f32⟩
  | .local _ .vmem, ⟨7, _⟩ => ⟨S8x8x1600, .f32⟩
  | .local _ .vmem, ⟨8, _⟩ => ⟨S8x1600, .f32⟩
  | .local _ .vmem, ⟨9, _⟩ => ⟨S8x1600, .f32⟩
  | _, _ => ⟨S128x50x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x50x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1600x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x8x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S128_S1_0 : S128.Slices ![0] S1
  shapeCasts_S1_S_ : S1.ShapeCasts S_
  bcast_S_S8x128 : S_.BroadcastsInDim S8x128 (![] : Fin 0 → Fin S8x128.rank)
  bcast_S_S8 : S_.BroadcastsInDim S8 (![] : Fin 0 → Fin S8.rank)
  transposes_S8x128_S128x8_1_0 : S8x128.Transposes [1, 0] S128x8
  shapeCasts_S128x32x50x128_S128x1600x128 : S128x32x50x128.ShapeCasts S128x1600x128
  inb_S8x50x128_S8x50x128_0_0_0 : ∀ a, (![0, 0, 0] : Fin 3 → Nat) a + S8x50x128.size a ≤ S8x50x128.size a
  h_S8x50x128 : 0 < S8x50x128.numel
  inb_S8x1600x128_S8x1600x128_0_0_0 : ∀ a, (![0, 0, 0] : Fin 3 → Nat) a + S8x1600x128.size a ≤ S8x1600x128.size a
  h_S8x1600x128 : 0 < S8x1600x128.numel
  shapeCasts_S8x1600x128_S8x1600x128 : S8x1600x128.ShapeCasts S8x1600x128
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S8_S8_0 : ∀ a, (![0] : Fin 1 → Nat) a + S8.size a ≤ S8.size a
  h_S8 : 0 < S8.numel
  shapeCasts_S8_S8 : S8.ShapeCasts S8
  concatenates_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x1600x128_d1 : Shape.Concatenates [S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128, S8x50x128] S8x1600x128 1
  shapeCasts_S8x1600x128_S12800x128 : S8x1600x128.ShapeCasts S12800x128
  shapeCasts_S12800x8_S8x1600x8 : S12800x8.ShapeCasts S8x1600x8
  shapeCasts_S8_S1x1x8 : S8.ShapeCasts S1x1x8
  broadcasts_S1x1x8_S8x1600x8 : S1x1x8.Broadcasts S8x1600x8
  reduces_S8x1600x8_S8x8 : S8x1600x8.Reduces [1] S8x8
  shapeCasts_S8x8_S8x1x8 : S8x8.ShapeCasts S8x1x8
  broadcasts_S8x1x8_S8x1600x8 : S8x1x8.Broadcasts S8x1600x8
  reduces_S8x1600x8_S8x1600 : S8x1600x8.Reduces [2] S8x1600
  shapeCasts_S8x1600_S8x1600x1 : S8x1600.ShapeCasts S8x1600x1
  shapeCasts_S8x1600x1_S8x1600 : S8x1600x1.ShapeCasts S8x1600
  transposes_S8x1600x8_p0_2_1_S8x8x1600 : S8x1600x8.Transposes [0, 2, 1] S8x8x1600
  inb_S8x8x1600_S8x8x1600_0_0_0 : ∀ a, (![0, 0, 0] : Fin 3 → Nat) a + S8x8x1600.size a ≤ S8x8x1600.size a
  h_S8x8x1600 : 0 < S8x8x1600.numel
  inb_S8x1600_S8x1600_0_0 : ∀ a, (![0, 0] : Fin 2 → Nat) a + S8x1600.size a ≤ S8x1600.size a
  h_S8x1600 : 0 < S8x1600.numel
  shapeCasts_S128x1600_S128x32x50 : S128x1600.ShapeCasts S128x32x50
  dot_S12800x128_S128x8_S12800x8_1_0_0_1_n_n_wf : DotDims.WF S12800x128 S128x8 S12800x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x50x128.size a ≤ S128x50x128.size a
  hwx0_0 : ∀ i : grid0.Coords, EltTy.bits .f32 = 32 ∨ (Rect.block (s := S128x50x128) S8x50x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1600x128.size a ≤ S128x1600x128.size a
  hwx0_1 : ∀ i : grid0.Coords, EltTy.bits .f32 = 32 ∨ (Rect.block (s := S128x1600x128) S8x1600x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S128x8.size a
  hwx0_2 : ∀ i : grid0.Coords, EltTy.bits .f32 = 32 ∨ (Rect.block (s := S128x8) S128x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8.size a ≤ S8.size a
  hwx0_3 : ∀ i : grid0.Coords, EltTy.bits .f32 = 32 ∨ (Rect.block (s := S8) S8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8x1600.size a ≤ S128x8x1600.size a
  hwx0_4 : ∀ i : grid0.Coords, EltTy.bits .f32 = 32 ∨ (Rect.block (s := S128x8x1600) S8x8x1600.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1600.size a ≤ S128x1600.size a
  hwx0_5 : ∀ i : grid0.Coords, EltTy.bits .f32 = 32 ∨ (Rect.block (s := S128x1600) S8x1600.size (cc0_transform_5 i) (hinb0_5 i)).WholeWords (EltTy.packing .f32)

variable [Facts₀]

def dot_S12800x128_S128x8_S12800x8_1_0_0_1_n_n : DotDims S12800x128 S128x8 S12800x8 where
  lhsContracting := [1]
  rhsContracting := [0]
  lhsNonContracting := [0]
  rhsNonContracting := [1]
  lhsBatch := []
  rhsBatch := []
  wf := dot_S12800x128_S128x8_S12800x8_1_0_0_1_n_n_wf

abbrev win0_0 : Pipeline.Window sig grid0 :=
  Pipeline.Window.ofSpec (Memref.whole main_arg0) S8x50x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S8x1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S8x8x1600.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S8x1600.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x50x128 : Shape := ⟨3, ![128, 50, 128]⟩
abbrev S128x32x50x128 : Shape := ⟨4, ![128, 32, 50, 128]⟩
abbrev S128 : Shape := ⟨1, ![128]⟩
abbrev S8x128 : Shape := ⟨2, ![8, 128]⟩
abbrev S8 : Shape := ⟨1, ![8]⟩
abbrev S128x1600x128 : Shape := ⟨3, ![128, 1600, 128]⟩
abbrev S1x128x1x50x1x128 : Shape := ⟨6, ![1, 128, 1, 50, 1, 128]⟩
abbrev S1x128x32x50x1x128 : Shape := ⟨6, ![1, 128, 32, 50, 1, 128]⟩
abbrev S128x1600x8 : Shape := ⟨3, ![128, 1600, 8]⟩
abbrev S1x1x8 : Shape := ⟨3, ![1, 1, 8]⟩
abbrev S1 : Shape := ⟨1, ![1]⟩
abbrev S_ : Shape := ⟨0, ![]⟩
abbrev S128x8x1600 : Shape := ⟨3, ![128, 8, 1600]⟩
abbrev S128x8 : Shape := ⟨2, ![128, 8]⟩
abbrev S128x8x1 : Shape := ⟨3, ![128, 8, 1]⟩
abbrev S128x1600 : Shape := ⟨2, ![128, 1600]⟩
abbrev S128x32x50 : Shape := ⟨3, ![128, 32, 50]⟩

abbrev nBuf : Space → Nat
  | .hbm => 39
  | .vmem => 0
  | .smem => 0
  | _ => 0

abbrev bufTy : (tb : Table) → Fin (tcTables nBuf tb) → BufTy
  | .hbm, ⟨0, _⟩ => ⟨S128x50x128, .f32⟩
  | .hbm, ⟨1, _⟩ => ⟨S128x32x50x128, .f32⟩
  | .hbm, ⟨2, _⟩ => ⟨S128, .i32⟩
  | .hbm, ⟨3, _⟩ => ⟨S8x128, .f32⟩
  | .hbm, ⟨4, _⟩ => ⟨S8, .f32⟩
  | .hbm, ⟨5, _⟩ => ⟨S128x1600x128, .f32⟩
  | .hbm, ⟨6, _⟩ => ⟨S1x128x1x50x1x128, .f32⟩
  | .hbm, ⟨7, _⟩ => ⟨S1x128x32x50x1x128, .f32⟩
  | .hbm, ⟨8, _⟩ => ⟨S128x1600x128, .f32⟩
  | .hbm, ⟨9, _⟩ => ⟨S128x1600x128, .f32⟩
  | .hbm, ⟨10, _⟩ => ⟨S128x1600x8, .f32⟩
  | .hbm, ⟨11, _⟩ => ⟨S1x1x8, .f32⟩
  | .hbm, ⟨12, _⟩ => ⟨S128x1600x8, .f32⟩
  | .hbm, ⟨13, _⟩ => ⟨S128x1600x8, .f32⟩
  | .hbm, ⟨14, _⟩ => ⟨S1, .i32⟩
  | .hbm, ⟨15, _⟩ => ⟨S_, .i32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128x8x1600, .f32⟩
  | .hbm, ⟨20, _⟩ => ⟨S128x8x1600, .f32⟩
  | .hbm, ⟨21, _⟩ => ⟨S128x8x1600, .f32⟩
  | .hbm, ⟨22, _⟩ => ⟨S_, .f32⟩
  | .hbm, ⟨23, _⟩ => ⟨S128x8, .f32⟩
  | .hbm, ⟨24, _⟩ => ⟨S_, .f32⟩
  | .hbm, ⟨25, _⟩ => ⟨S128x8, .f32⟩
  | .hbm, ⟨26, _⟩ => ⟨S128x8, .f32⟩
  | .hbm, ⟨27, _⟩ => ⟨S128x8x1, .f32⟩
  | .hbm, ⟨28, _⟩ => ⟨S128x8x1600, .f32⟩
  | .hbm, ⟨29, _⟩ => ⟨S128x8x1600, .f32⟩
  | .hbm, ⟨30, _⟩ => ⟨S128x8x1600, .f32⟩
  | .hbm, ⟨31, _⟩ => ⟨S_, .f32⟩
  | .hbm, ⟨32, _⟩ => ⟨S128x8, .f32⟩
  | .hbm, ⟨33, _⟩ => ⟨S128x8x1, .f32⟩
  | .hbm, ⟨34, _⟩ => ⟨S128x8x1600, .f32⟩
  | .hbm, ⟨35, _⟩ => ⟨S128x8x1600, .f32⟩
  | .hbm, ⟨36, _⟩ => ⟨S_, .f32⟩
  | .hbm, ⟨37, _⟩ => ⟨S128x1600, .f32⟩
  | .hbm, ⟨38, _⟩ => ⟨S128x32x50, .f32⟩
  | _, _ => ⟨S128x50x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S128x32x50x128_S128x1600x128 : S128x32x50x128.ShapeCasts S128x1600x128
  shapeCasts_S128x50x128_S1x128x1x50x1x128 : S128x50x128.ShapeCasts S1x128x1x50x1x128
  bcast_S1x128x1x50x1x128_S1x128x32x50x1x128_0_1_2_3_4_5 : S1x128x1x50x1x128.BroadcastsInDim S1x128x32x50x1x128 (![0, 1, 2, 3, 4, 5] : Fin 6 → Fin S1x128x32x50x1x128.rank)
  shapeCasts_S1x128x32x50x1x128_S128x1600x128 : S1x128x32x50x1x128.ShapeCasts S128x1600x128
  bcast_S8_S1x1x8_2 : S8.BroadcastsInDim S1x1x8 (![2] : Fin 1 → Fin S1x1x8.rank)
  bcast_S1x1x8_S128x1600x8_0_1_2 : S1x1x8.BroadcastsInDim S128x1600x8 (![0, 1, 2] : Fin 3 → Fin S128x1600x8.rank)
  slices_S128_S1_0 : S128.Slices ![0] S1
  shapeCasts_S1_S_ : S1.ShapeCasts S_
  transposes_S128x1600x8_S128x8x1600_0_2_1 : S128x1600x8.Transposes [0, 2, 1] S128x8x1600
  bcast_S_S128x8x1600 : S_.BroadcastsInDim S128x8x1600 (![] : Fin 0 → Fin S128x8x1600.rank)
  reducesTo_S128x8x1600_S128x8_d2 : S128x8x1600.ReducesTo [2] S128x8
  h_S_ : 0 < S_.numel
  bcast_S_S128x8 : S_.BroadcastsInDim S128x8 (![] : Fin 0 → Fin S128x8.rank)
  bcast_S128x8_S128x8x1_0_1 : S128x8.BroadcastsInDim S128x8x1 (![0, 1] : Fin 2 → Fin S128x8x1.rank)
  bcast_S128x8x1_S128x8x1600_0_1_2 : S128x8x1.BroadcastsInDim S128x8x1600 (![0, 1, 2] : Fin 3 → Fin S128x8x1600.rank)
  reducesTo_S128x8x1600_S128x1600_d1 : S128x8x1600.ReducesTo [1] S128x1600
  shapeCasts_S128x1600_S128x32x50 : S128x1600.ShapeCasts S128x32x50
  dot_S128x1600x128_S8x128_S128x1600x8_2_1_01_0_n_n_wf : DotDims.WF S128x1600x128 S8x128 S128x1600x8 [2] [1] [0, 1] [0] [] []

variable [Facts₀]

def dot_S128x1600x128_S8x128_S128x1600x8_2_1_01_0_n_n : DotDims S128x1600x128 S8x128 S128x1600x8 where
  lhsContracting := [2]
  rhsContracting := [1]
  lhsNonContracting := [0, 1]
  rhsNonContracting := [0]
  lhsBatch := []
  rhsBatch := []
  wf := dot_S128x1600x128_S8x128_S128x1600x8_2_1_01_0_n_n_wf

class Facts : Prop extends Facts₀ where

variable [Facts]
-- ==== Proof.RowSoftmax.lean ====
/-
  The softmax of one row of extended-real scores, as both programs compute it: subtract the row's maximum,
  exponentiate, divide by the sum of the exponentials. Two facts about it carry the certificate.

  (1) A row whose scores are all infinite (each `⊤` or `⊥`) has softmax `⊥` at every position: every score minus
      the maximum is `⊥` (`⊥ - x = ⊥`, and `⊤ - ⊤ = ⊥` on the extended reals), its exponential is `0`, the sum
      is `0`, and `0 / 0` is `⊥`. This is what happens when the scale is zero: every quotient by zero is infinite.

  (2) For finite data `x k`, `w k`, `β` and any scale `s ≠ 0`, scaling the weights and the bias before the
      projection gives the score that scaling after it gives:
      `∑ k, x k · (w k / s) + β / s = (∑ k, x k · w k + β) / s` — the reciprocal of a nonzero extended real is a
      real number, and over the reals this is distributivity.
-/
import Idealize.ShloMosaic.PureOps.Ideal
import Idealize.ShloMosaic.PureOps.Ideal.Laws

noncomputable section

namespace Cert.RowSoftmax

open Idealize.ShloMosaic
open scoped BigOperators

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The maximum of a row, from `⊥`. -/
def rowMax (f : Fin 1600 → EReal) : EReal := (Finset.univ : Finset (Fin 1600)).fold max ⊥ f

/-- The exponential of a score less the row's maximum. -/
def rowExp (f : Fin 1600 → EReal) (n : Fin 1600) : EReal := Ideal.exp (f n - rowMax f)

/-- The softmax of a row at a position. -/
def rowSoftmax (f : Fin 1600 → EReal) (n : Fin 1600) : EReal := Ideal.div (rowExp f n) (∑ k : Fin 1600, rowExp f k)

theorem le_rowMax (f : Fin 1600 → EReal) (n : Fin 1600) : f n ≤ rowMax f :=
  (Finset.le_fold_max (f n)).mpr (Or.inr ⟨n, Finset.mem_univ n, le_rfl⟩)

/-- In a row of infinite scores every exponential vanishes. -/
theorem rowExp_of_infinite (f : Fin 1600 → EReal) (h : ∀ n, f n = ⊤ ∨ f n = ⊥) (n : Fin 1600) : rowExp f n = 0 := by
  unfold rowExp
  rcases h n with hn | hn
  · have hm : rowMax f = ⊤ := top_le_iff.mp (hn ▸ le_rowMax f n)
    rw [hn, hm, EReal.sub_top]; rfl
  · rw [hn, sub_eq_add_neg, EReal.bot_add]; rfl

/-- The softmax of a row of infinite scores is `⊥` everywhere. -/
theorem rowSoftmax_of_infinite (f : Fin 1600 → EReal) (h : ∀ n, f n = ⊤ ∨ f n = ⊥) (n : Fin 1600) : rowSoftmax f n = ⊥ := by
  unfold rowSoftmax
  rw [rowExp_of_infinite f h n, Finset.sum_eq_zero (fun k _ => rowExp_of_infinite f h k)]
  unfold Ideal.div
  rw [if_pos rfl, if_neg (lt_irrefl _)]

/-- A quotient by zero is infinite. -/
theorem div_zero_infinite (x : EReal) : Ideal.div x 0 = ⊤ ∨ Ideal.div x 0 = ⊥ := by
  unfold Ideal.div
  rw [if_pos rfl]
  by_cases h : 0 < x
  · exact Or.inl (if_pos h)
  · exact Or.inr (if_neg h)

/-- Anything plus an infinite value is infinite. -/
theorem add_infinite (x y : EReal) (hy : y = ⊤ ∨ y = ⊥) : x + y = ⊤ ∨ x + y = ⊥ := by
  rcases hy with rfl | rfl
  · by_cases hx : x = ⊥
    · right; rw [hx]; exact EReal.bot_add _
    · left; exact EReal.add_top_of_ne_bot hx
  · right; exact EReal.add_bot _

/-- Off zero the quotient is the product with the reciprocal, and the reciprocal is a real number. -/
theorem div_eq_mul_real {s : EReal} (hs : s ≠ 0) : ∃ r : ℝ, ∀ x : EReal, Ideal.div x s = x * (r : EReal) := by
  induction s using EReal.rec with
  | bot => exact ⟨0, fun x => by unfold Ideal.div; rw [if_neg hs, EReal.inv_bot]; rfl⟩
  | top => exact ⟨0, fun x => by unfold Ideal.div; rw [if_neg hs, EReal.inv_top]; rfl⟩
  | coe y => exact ⟨y⁻¹, fun x => by unfold Ideal.div; rw [if_neg hs, EReal.coe_inv]⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling the weights and the bias before the projection, or the score after it: one real number. -/
theorem score_scaled (x w : Fin 128 → EReal) (β : EReal) (r : ℝ) (hx : ∀ k, IsReal (x k)) (hw : ∀ k, IsReal (w k))
    (hβ : IsReal β) :
    (∑ k : Fin 128, x k * (w k * (r : EReal))) + β * (r : EReal) = ((∑ k : Fin 128, x k * w k) + β) * (r : EReal) := by
  choose x' hx' using hx
  choose w' hw' using hw
  obtain ⟨b, rfl⟩ := hβ
  simp only [hx', hw', ← EReal.coe_mul, ← coe_sum, ← EReal.coe_add]
  congr 1
  rw [add_mul, Finset.sum_mul]
  congr 1
  exact Finset.sum_congr rfl fun k _ => by ring

/-- THE LAW that joins the two programs: the softmax of the scores of scaled weights and bias is the softmax of the
    scaled scores, for finite data and ANY scale — equal scores off zero, and both rows all-infinite at zero. -/
theorem softmax_scaled (x : Fin 1600 → Fin 128 → EReal) (w : Fin 128 → EReal) (β s : EReal)
    (hx : ∀ n k, IsReal (x n k)) (hw : ∀ k, IsReal (w k)) (hβ : IsReal β) :
    rowSoftmax (fun n => (∑ k : Fin 128, x n k * Ideal.div (w k) s) + Ideal.div β s)
      = rowSoftmax (fun n => Ideal.div ((∑ k : Fin 128, x n k * w k) + β) s) := by
  by_cases hs : s = 0
  · subst hs
    funext n
    rw [rowSoftmax_of_infinite _ (fun n => add_infinite _ _ (div_zero_infinite β)) n,
      rowSoftmax_of_infinite _ (fun n => div_zero_infinite _) n]
  · obtain ⟨r, hr⟩ := div_eq_mul_real hs
    congr 1
    funext n
    simp only [hr]
    exact score_scaled (x n) w β r (hx n) hw hβ

end Cert.RowSoftmax

end
-- ==== Proof.Spec.lean ====
/-
  What the two programs compute, as whole-array functions of the argument arrays.

  Position `n` of the fused neighbour-time axis (32 neighbours × 50 time steps) is time step `n % 50`; the guided
  product at `(b, n, k)` is `neigh[b, n, k] · node[b, n % 50, k]`; a score is its projection on one attention hop's
  weight row plus the hop's bias; the attention `BA[b, a, ·]` is the softmax of hop `a`'s scores along the fused axis,
  and the attention weight `BW[b, n]` the sum of `BA[b, ·, n]` over the eight hops.

  The two programs differ in where the scale `s` divides: one divides the weights and the bias before the projection
  (`scoreScaledWeights`, over the transposed scaled weights), the other divides the score (`scoreScaledAfter`).
  `attn_scaled`: for finite data the attentions agree, at any scale (RowSoftmax.lean `softmax_scaled`).
-/
import Idealize.ShloMosaic.Lib.ValueIdx
import proofs.«111529_j48395691491480_2_alg».proof.Proof.RowSoftmax

noncomputable section

namespace Cert.GuidedAttention

open Idealize.ShloMosaic Idealize.ShloMosaic.ValueIdx Cert.RowSoftmax
open scoped BigOperators

abbrev SNode : Shape := ⟨3, ![128, 50, 128]⟩
abbrev SNeigh : Shape := ⟨3, ![128, 1600, 128]⟩
abbrev SAttn : Shape := ⟨3, ![128, 8, 1600]⟩
abbrev SWeight : Shape := ⟨2, ![128, 1600]⟩
abbrev SW : Shape := ⟨2, ![8, 128]⟩
abbrev SWt : Shape := ⟨2, ![128, 8]⟩
abbrev SBias : Shape := ⟨1, ![8]⟩

/-- The time step of a position of the fused neighbour-time axis. -/
def tstep (n : Fin 1600) : Fin 50 := ⟨n.val % 50, Nat.mod_lt _ (by norm_num)⟩

/-- The guided product: the neighbour's state times the node's state at the same time step. -/
def guided (node : SNode.Idx → EReal) (nf : SNeigh.Idx → EReal) (b : Fin 128) (n : Fin 1600) (k : Fin 128) : EReal :=
  nf (ix3 b n k) * node (ix3 b (tstep n) k)

/-- A score from weights and bias that are already scaled (the weights transposed, hidden axis first). -/
def scoreScaledWeights (node : SNode.Idx → EReal) (nf : SNeigh.Idx → EReal) (wt : SWt.Idx → EReal) (bs : SBias.Idx → EReal)
    (b : Fin 128) (a : Fin 8) (n : Fin 1600) : EReal :=
  (∑ k : Fin 128, guided node nf b n k * wt (ix2 k a)) + bs (ix1 a)

/-- A score scaled after the projection. -/
def scoreScaledAfter (node : SNode.Idx → EReal) (nf : SNeigh.Idx → EReal) (W : SW.Idx → EReal) (bias : SBias.Idx → EReal)
    (s : EReal) (b : Fin 128) (a : Fin 8) (n : Fin 1600) : EReal :=
  Ideal.div ((∑ k : Fin 128, guided node nf b n k * W (ix2 a k)) + bias (ix1 a)) s

/-- The attention: per sample and hop, the softmax of the scores along the fused axis. -/
def attn (score : Fin 128 → Fin 8 → Fin 1600 → EReal) : SAttn.Idx → EReal :=
  fun i => rowSoftmax (score (i 0) (i 1)) (i 2)

/-- The attention weight of a position: the attentions of the eight hops summed. -/
def weightSum (BA : SAttn.Idx → EReal) : SWeight.Idx → EReal :=
  fun i => ∑ a : Fin 8, BA (ix3 (i 0) a (i 1))

/-- For finite data, scaling weights and bias before the projection or the scores after it gives one attention,
    whatever the scale. -/
theorem attn_scaled (node : SNode.Idx → EReal) (nf : SNeigh.Idx → EReal) (W : SW.Idx → EReal) (bias : SBias.Idx → EReal)
    (s : EReal) (hnode : ∀ i, IsReal (node i)) (hnf : ∀ i, IsReal (nf i)) (hW : ∀ i, IsReal (W i))
    (hbias : ∀ i, IsReal (bias i)) :
    attn (scoreScaledWeights node nf (fun j => Ideal.div (W (ix2 (j 1) (j 0))) s) (fun j => Ideal.div (bias j) s))
      = attn (scoreScaledAfter node nf W bias s) := by
  funext i
  unfold attn
  exact congrFun (softmax_scaled (fun n k => guided node nf (i 0) n k) (fun k => W (ix2 (i 1) k)) (bias (ix1 (i 1))) s
    (fun n k => (hnf _).mul (hnode _)) (fun k => hW _) (hbias _)) (i 2)

end Cert.GuidedAttention

end
-- ==== Proof.BodyLayout.lean ====
/-
  The body's layout and reduction operations read at explicit coordinates, at the ideal values: the node block tiled 32
  times along the fused axis reads time step `n % 50`; merging or splitting the two leading axes [8, 1600] ↔ [12800]
  sends `(p, n)` to row `1600 p + n`; the matrix product with a zero accumulator is the sum over the 128 hidden
  coordinates; the bias and the per-(sample, hop) reductions broadcast back along the fused axis; a reduction along
  an axis is the fold, or the sum, over that axis's coordinate.
-/
import proofs.«111529_j48395691491480_2_alg».proof.Proof.Gen.KernelIdeal.Skeleton
import proofs.«111529_j48395691491480_2_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.GuidedAttention Cert.RowSoftmax
open Idealize.ShloMosaic Idealize.ShloMosaic.ValueIdx
open scoped BigOperators

/-- Row `1600 p + n` of the merged leading axes. -/
def mrow (p : Fin 8) (n : Fin 1600) : Fin 12800 := ⟨p.val * 1600 + n.val, by have := p.isLt; have := n.isLt; omega⟩

/-- The tiled node block at fused position `n` is the node block at time step `n % 50`. -/
theorem tile_apply (v0 : FVec Ideal S8x50x128 .f32)
    (h : Shape.Concatenates ((List.replicate 32 (⟨S8x50x128, v0⟩ : (s : Shape) × (s.Idx → Ideal .f32))).map (·.1)) S8x1600x128 1)
    (p : Fin 8) (n : Fin 1600) (k : Fin 128) :
    concatenate S8x1600x128 1 (List.replicate 32 (⟨S8x50x128, v0⟩ : (s : Shape) × (s.Idx → Ideal .f32))) h (ix3 p n k)
      = v0 (ix3 p (tstep n) k) :=
  concatenate_replicate_apply (t := S8x1600x128) (s₁ := S8x50x128) (1 : Fin 3) 32 v0 h rfl (ix3 p n k) (ix3 p (tstep n) k) rfl
    (fun b hb => match b with
      | ⟨0, _⟩ => rfl
      | ⟨1, _⟩ => absurd rfl hb
      | ⟨2, _⟩ => rfl)

/-- Merging the two leading axes. -/
theorem merge_apply (v : FVec Ideal S8x1600x128 .f32) (h : S8x1600x128.ShapeCasts S12800x128) (p : Fin 8) (n : Fin 1600) (k : Fin 128) :
    shapeCast S12800x128 v h (ix2 (mrow p n) k) = v (ix3 p n k) :=
  shapeCast_apply v h (ix2 (mrow p n) k) (ix3 p n k) (by rw [Shape.rowMajor_val_three, Shape.rowMajor_val_two]; rfl)

/-- Splitting them again. -/
theorem split_apply (v : FVec Ideal S12800x8 .f32) (h : S12800x8.ShapeCasts S8x1600x8) (p : Fin 8) (n : Fin 1600) (a : Fin 8) :
    shapeCast S8x1600x8 v h (ix3 p n a) = v (ix2 (mrow p n) a) :=
  shapeCast_apply v h (ix3 p n a) (ix2 (mrow p n) a) (by rw [Shape.rowMajor_val_three, Shape.rowMajor_val_two]; rfl)

/-- The bias, given two leading unit axes and broadcast over samples and positions. -/
theorem bias_apply (v : FVec Ideal S8 .f32) (h : S8.ShapeCasts S1x1x8) (h' : S1x1x8.Broadcasts S8x1600x8)
    (p : Fin 8) (n : Fin 1600) (a : Fin 8) :
    broadcastTo S8x1600x8 (shapeCast S1x1x8 v h) h' (ix3 p n a) = v (ix1 a) := by
  rw [broadcastTo_apply _ h' (ix3 p n a) (ix3 (0 : Fin 1) (0 : Fin 1) a) (fun c => match c with
    | ⟨0, _⟩ => rfl
    | ⟨1, _⟩ => rfl
    | ⟨2, _⟩ => rfl)]
  exact shapeCast_apply v h _ (ix1 a) (by rw [Shape.rowMajor_val_three, Shape.rowMajor_val_one]; simp)

/-- A per-(sample, hop) value, given a unit fused axis and broadcast back along it. -/
theorem keep_apply (v : FVec Ideal S8x8 .f32) (h : S8x8.ShapeCasts S8x1x8) (h' : S8x1x8.Broadcasts S8x1600x8)
    (p : Fin 8) (n : Fin 1600) (a : Fin 8) :
    broadcastTo S8x1600x8 (shapeCast S8x1x8 v h) h' (ix3 p n a) = v (ix2 p a) := by
  rw [broadcastTo_apply _ h' (ix3 p n a) (ix3 p (0 : Fin 1) a) (fun c => match c with
    | ⟨0, _⟩ => rfl
    | ⟨1, _⟩ => rfl
    | ⟨2, _⟩ => rfl)]
  exact shapeCast_apply v h _ (ix2 p a) (by rw [Shape.rowMajor_val_three, Shape.rowMajor_val_two]; simp)

end Cert.KernelIdeal.Body

end
-- ==== Proof.BodyReduce.lean ====
/-
  The body's reductions, matrix product and transpose read at explicit coordinates, at the ideal values: the maximum
  and the sum along the fused axis at `(p, a)` range over the positions `n` of `(p, n, a)`; the sum over the hops at
  `(p, n)` ranges over `a`; the product of a [12800, 128] by a [128, 8] matrix onto a zero accumulator is, at
  `(r, a)`, the sum over the 128 contracted coordinates; the transpose swaps the two trailing axes.
-/
import proofs.«111529_j48395691491480_2_alg».proof.Proof.Gen.KernelIdeal.Skeleton
import proofs.«111529_j48395691491480_2_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Cert.GuidedAttention Cert.RowSoftmax
open Idealize.ShloMosaic Idealize.ShloMosaic.ValueIdx
open scoped BigOperators

/-- The pattern of minus infinity is the bottom of the extended reals. -/
theorem ofBits_neg_inf : Ideal.ofBits .f32 0xFF800000#32 = (⊥ : EReal) := by
  simp [Ideal.ofBits, Ideal.ieee]

/-- Inserting a coordinate of the fused axis. -/
theorem lift_fused (h : S8x1600x8.Reduces [1] S8x8) (p : Fin 8) (a : Fin 8) (k : Fin 1600) :
    h.lift (ix2 p a) k = ix3 p k a :=
  funext fun c => Fin.ext (by
    match c with
    | ⟨0, _⟩ => rfl
    | ⟨1, _⟩ => rfl
    | ⟨2, _⟩ => rfl)

/-- Inserting a coordinate of the hop axis. -/
theorem lift_hop (h : S8x1600x8.Reduces [2] S8x1600) (p : Fin 8) (n : Fin 1600) (k : Fin 8) :
    h.lift (ix2 p n) k = ix3 p n k :=
  funext fun c => Fin.ext (by
    match c with
    | ⟨0, _⟩ => rfl
    | ⟨1, _⟩ => rfl
    | ⟨2, _⟩ => rfl)

/-- The maximum along the fused axis is the row's maximum. -/
theorem maxred_apply (S : FVec Ideal S8x1600x8 .f32) (h : S8x1600x8.Reduces [1] S8x8) (hφ : FKind.Formats FTy.f32)
    (hacc : (0xFF800000#32 : BitVec FTy.f32.bits) = FKind.maximumf.neutral .f32 hφ) (p : Fin 8) (a : Fin 8) :
    multiReduction (F := Ideal) .maximumf [1] S8x8 S 0xFF800000#32 h hφ hacc (ix2 p a) = rowMax (fun n => S (ix3 p n a)) := by
  refine (Ideal.multiReduction_maximumf_single S _ h hφ hacc (ix2 p a)).trans ?_
  unfold rowMax
  rw [Ideal.ofBits_def, ofBits_neg_inf]
  exact congrArg (fun f => Finset.fold max (⊥ : EReal) f Finset.univ) (funext fun k => congrArg S (lift_fused h p a k))

/-- The sum along the fused axis. -/
theorem sumred_fused_apply (E : FVec Ideal S8x1600x8 .f32) (h : S8x1600x8.Reduces [1] S8x8) (hφ : FKind.Formats FTy.f32)
    (hacc : (0x00000000#32 : BitVec FTy.f32.bits) = FKind.add.neutral .f32 hφ) (p : Fin 8) (a : Fin 8) :
    multiReduction (F := Ideal) .add [1] S8x8 E 0x00000000#32 h hφ hacc (ix2 p a) = ∑ n : Fin 1600, E (ix3 p n a) :=
  (Ideal.multiReduction_add_single E _ h hφ hacc (ix2 p a)).trans
    (Finset.sum_congr rfl fun k _ => congrArg E (lift_fused h p a k))

/-- The sum over the hops. -/
theorem sumred_hop_apply (V : FVec Ideal S8x1600x8 .f32) (h : S8x1600x8.Reduces [2] S8x1600) (hφ : FKind.Formats FTy.f32)
    (hacc : (0x00000000#32 : BitVec FTy.f32.bits) = FKind.add.neutral .f32 hφ) (p : Fin 8) (n : Fin 1600) :
    multiReduction (F := Ideal) .add [2] S8x1600 V 0x00000000#32 h hφ hacc (ix2 p n) = ∑ a : Fin 8, V (ix3 p n a) :=
  (Ideal.multiReduction_add_single V _ h hφ hacc (ix2 p n)).trans
    (Finset.sum_congr rfl fun k _ => congrArg V (lift_hop h p n k))

/-- The transpose of the two trailing axes. -/
theorem swap_apply (V : FVec Ideal S8x1600x8 .f32) (h : S8x1600x8.Transposes [0, 2, 1] S8x8x1600) (p : Fin 8) (a : Fin 8)
    (n : Fin 1600) : transpose S8x8x1600 [0, 2, 1] V h (ix3 p a n) = V (ix3 p n a) :=
  transpose_apply [0, 2, 1] V h (ix3 p a n) (ix3 p n a) (fun b => match b with
    | ⟨0, _⟩ => rfl
    | ⟨1, _⟩ => rfl
    | ⟨2, _⟩ => rfl)

theorem lhs_row (j : S12800x8.Idx) (q : dot_S12800x128_S128x8_S12800x8_1_0_0_1_n_n.contr.Idx) : (dot_S12800x128_S128x8_S12800x8_1_0_0_1_n_n.lhsIdx j q 0).val = (j 0).val := by
  unfold DotDims.lhsIdx
  rw [dif_neg (show ¬(0 : Fin S12800x128.rank) ∈ dot_S12800x128_S128x8_S12800x8_1_0_0_1_n_n.lhsBatch by decide), dif_pos (show (0 : Fin S12800x128.rank) ∈ dot_S12800x128_S128x8_S12800x8_1_0_0_1_n_n.lhsNonContracting by decide)]
  rfl
theorem lhs_contr (j : S12800x8.Idx) (q : dot_S12800x128_S128x8_S12800x8_1_0_0_1_n_n.contr.Idx) : (dot_S12800x128_S128x8_S12800x8_1_0_0_1_n_n.lhsIdx j q 1).val = (q ⟨0, by decide⟩).val :=
  dot_S12800x128_S128x8_S12800x8_1_0_0_1_n_n.lhsIdx_val_of_single rfl j q
theorem rhs_contr (j : S12800x8.Idx) (q : dot_S12800x128_S128x8_S12800x8_1_0_0_1_n_n.contr.Idx) : (dot_S12800x128_S128x8_S12800x8_1_0_0_1_n_n.rhsIdx j q 0).val = (q ⟨0, by decide⟩).val :=
  dot_S12800x128_S128x8_S12800x8_1_0_0_1_n_n.rhsIdx_val_of_single rfl j q
theorem rhs_col (j : S12800x8.Idx) (q : dot_S12800x128_S128x8_S12800x8_1_0_0_1_n_n.contr.Idx) : (dot_S12800x128_S128x8_S12800x8_1_0_0_1_n_n.rhsIdx j q 1).val = (j 1).val := by
  unfold DotDims.rhsIdx
  rw [dif_neg (show ¬(1 : Fin S128x8.rank) ∈ dot_S12800x128_S128x8_S12800x8_1_0_0_1_n_n.rhsBatch by decide), dif_pos (show (1 : Fin S128x8.rank) ∈ dot_S12800x128_S128x8_S12800x8_1_0_0_1_n_n.rhsNonContracting by decide)]
  rfl

/-- The projection: a matrix product onto a zero accumulator, as a sum over the hidden coordinate. -/
theorem proj_apply (L : FVec Ideal S12800x128 .f32) (R : FVec Ideal S128x8 .f32) (r : Fin 12800) (a : Fin 8) :
    matmul (F := Ideal) dot_S12800x128_S128x8_S12800x8_1_0_0_1_n_n none L R (constant (F := Ideal) S12800x8 .f32 0x00000000#32) (ix2 r a)
      = ∑ k : Fin 128, L (ix2 r k) * R (ix2 k a) := by
  simp only [matmul]
  rw [Ideal.matmul_constant_zero_apply, ← Equiv.sum_comp (ValueIdx.contrEquiv1 dot_S12800x128_S128x8_S12800x8_1_0_0_1_n_n 128 rfl rfl).symm]
  refine Finset.sum_congr rfl fun k _ => ?_
  have hk := ValueIdx.contrEquiv1_symm_val dot_S12800x128_S128x8_S12800x8_1_0_0_1_n_n 128 rfl rfl k
  have el : dot_S12800x128_S128x8_S12800x8_1_0_0_1_n_n.lhsIdx (ix2 r a) ((ValueIdx.contrEquiv1 dot_S12800x128_S128x8_S12800x8_1_0_0_1_n_n 128 rfl rfl).symm k) = ix2 r k := funext fun c => Fin.ext (by
    match c with
    | ⟨0, _⟩ => exact lhs_row _ _
    | ⟨1, _⟩ => exact (lhs_contr _ _).trans hk)
  have er : dot_S12800x128_S128x8_S12800x8_1_0_0_1_n_n.rhsIdx (ix2 r a) ((ValueIdx.contrEquiv1 dot_S12800x128_S128x8_S12800x8_1_0_0_1_n_n 128 rfl rfl).symm k) = ix2 k a := funext fun c => Fin.ext (by
    match c with
    | ⟨0, _⟩ => exact (rhs_contr _ _).trans hk
    | ⟨1, _⟩ => exact rhs_col _ _)
  rw [el, er]

end Cert.KernelIdeal.Body

end
-- ==== Proof.BodyValue.lean ====
/-
  What the body computes, at the ideal values, index by index. For one block of eight samples: the score at
  `(p, n, a)` is the guided product of sample `p` at position `n` projected on hop `a`'s (already scaled) weights,
  plus the (already scaled) bias; the attention at `(p, n, a)` is the softmax of hop `a`'s scores of sample `p` along
  the fused axis; one stored value is that with the trailing axes swapped, the other its sum over the hops.
-/
import proofs.«111529_j48395691491480_2_alg».proof.Proof.BodyLayout
import proofs.«111529_j48395691491480_2_alg».proof.Proof.BodyReduce

noncomputable section

namespace Cert.KernelIdeal.Body

open Cert.KernelIdeal Cert.KernelIdeal.Gen Cert.GuidedAttention Cert.RowSoftmax
open Idealize.ShloMosaic Idealize.ShloMosaic.ValueIdx
open scoped BigOperators

/-- The scores of a block: the projection of the guided product, plus the bias. -/
def scoresV (v0 : Vec Ideal S8x50x128 .f32) (v1 : Vec Ideal S8x1600x128 .f32) (v3 : Vec Ideal S128x8 .f32) (v5 : Vec Ideal S8 .f32) :
    FVec Ideal S8x1600x8 .f32 :=
  have v2 : FVec Ideal S8x1600x128 .f32 := shapeCast S8x1600x128 v1 shapeCasts_S8x1600x128_S8x1600x128
  have v4 : FVec Ideal S128x8 .f32 := shapeCast S128x8 v3 shapeCasts_S128x8_S128x8
  have v6 : FVec Ideal S8 .f32 := shapeCast S8 v5 shapeCasts_S8_S8
  have v7 : FVec Ideal S8x1600x128 .f32 := concatenate S8x1600x128 1 [⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩] concatenates_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x1600x128_d1
  have v8 : FVec Ideal S8x1600x128 .f32 := mulf v2 v7
  have v9 : FVec Ideal S12800x128 .f32 := shapeCast S12800x128 v8 shapeCasts_S8x1600x128_S12800x128
  have cst : FVec Ideal S12800x8 .f32 := constant S12800x8 .f32 0x00000000#32
  have v10 : FVec Ideal S12800x8 .f32 := matmul dot_S12800x128_S128x8_S12800x8_1_0_0_1_n_n none v9 v4 cst
  have v11 : FVec Ideal S8x1600x8 .f32 := shapeCast S8x1600x8 v10 shapeCasts_S12800x8_S8x1600x8
  have v12 : FVec Ideal S1x1x8 .f32 := shapeCast S1x1x8 v6 shapeCasts_S8_S1x1x8
  have v13 : FVec Ideal S8x1600x8 .f32 := broadcastTo S8x1600x8 v12 broadcasts_S1x1x8_S8x1600x8
  have v14 : FVec Ideal S8x1600x8 .f32 := addf v11 v13
  v14

/-- The exponentials of scores less their maximum along the fused axis. -/
def expV (v14 : FVec Ideal S8x1600x8 .f32) : FVec Ideal S8x1600x8 .f32 :=
  have v15 : FVec Ideal S8x8 .f32 := multiReduction .maximumf [1] S8x8 v14 0xFF800000#32 reduces_S8x1600x8_S8x8 (.inl rfl) rfl
  have v16 : FVec Ideal S8x1x8 .f32 := shapeCast S8x1x8 v15 shapeCasts_S8x8_S8x1x8
  have v17 : FVec Ideal S8x1600x8 .f32 := broadcastTo S8x1600x8 v16 broadcasts_S8x1x8_S8x1600x8
  have v18 : FVec Ideal S8x1600x8 .f32 := subf v14 v17
  have v19 : FVec Ideal S8x1600x8 .f32 := exp v18
  v19

/-- The softmax along the fused axis. -/
def softmaxV (v14 : FVec Ideal S8x1600x8 .f32) : FVec Ideal S8x1600x8 .f32 :=
  have v19 : FVec Ideal S8x1600x8 .f32 := expV v14
  have v20 : FVec Ideal S8x8 .f32 := multiReduction .add [1] S8x8 v19 0x00000000#32 reduces_S8x1600x8_S8x8 (.inl rfl) rfl
  have v21 : FVec Ideal S8x1x8 .f32 := shapeCast S8x1x8 v20 shapeCasts_S8x8_S8x1x8
  have v22 : FVec Ideal S8x1600x8 .f32 := broadcastTo S8x1600x8 v21 broadcasts_S8x1x8_S8x1600x8
  have v23 : FVec Ideal S8x1600x8 .f32 := divf v19 v22
  v23

variable (x0 : Vec Ideal S8x50x128 .f32) (x1 : Vec Ideal S8x1600x128 .f32) (x2 : Vec Ideal S128x8 .f32) (x3 : Vec Ideal S8 .f32)

set_option maxRecDepth 65536 in
/-- The printed attention is the softmax of the scores. -/
theorem pay1_eq : k0_pay1 (F := Ideal) x0 x1 x2 x3 = softmaxV (scoresV x0 x1 x2 x3) := rfl

/-- The tiled node block, as the body spells it (32 copies listed), at fused position `n`. -/
theorem tile_lit_apply (v0 : FVec Ideal S8x50x128 .f32) (p : Fin 8) (n : Fin 1600) (k : Fin 128) :
    (concatenate S8x1600x128 1 [⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩, ⟨S8x50x128, v0⟩] concatenates_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x1600x128_d1 : FVec Ideal S8x1600x128 .f32) (ix3 p n k) = v0 (ix3 p (tstep n) k) :=
  tile_apply v0 concatenates_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x50x128_S8x1600x128_d1 p n k

/-- A block's score at sample `p`, hop `a`, position `n`. -/
def blkScore (p : Fin 8) (a : Fin 8) (n : Fin 1600) : EReal :=
  (∑ k : Fin 128, (x1 (ix3 p n k) * x0 (ix3 p (tstep n) k)) * x2 (ix2 k a)) + x3 (ix1 a)

theorem exp_apply (v : FVec Ideal S8x1600x8 .f32) (i : S8x1600x8.Idx) : exp v i = Ideal.exp (v i) := rfl

theorem scoresV_apply (p : Fin 8) (n : Fin 1600) (a : Fin 8) :
    scoresV x0 x1 x2 x3 (ix3 p n a) = blkScore x0 x1 x2 x3 p a n := by
  unfold scoresV blkScore
  try dsimp only
  rw [addf_apply, split_apply, proj_apply, bias_apply]
  simp only [shapeCast_self]
  congr 1
  refine Finset.sum_congr rfl fun k _ => ?_
  rw [merge_apply, mulf_apply, tile_lit_apply]

theorem expV_apply (S : FVec Ideal S8x1600x8 .f32) (p : Fin 8) (n : Fin 1600) (a : Fin 8) :
    expV S (ix3 p n a) = rowExp (fun n' => S (ix3 p n' a)) n := by
  unfold expV rowExp
  try dsimp only
  rw [exp_apply, subf_apply, keep_apply]
  exact congrArg (fun z => Ideal.exp (S (ix3 p n a) - z)) (maxred_apply S _ _ _ p a)

theorem softmaxV_apply (S : FVec Ideal S8x1600x8 .f32) (p : Fin 8) (n : Fin 1600) (a : Fin 8) :
    softmaxV S (ix3 p n a) = rowSoftmax (fun n' => S (ix3 p n' a)) n := by
  unfold softmaxV rowSoftmax
  try dsimp only
  rw [divf_apply, keep_apply, expV_apply]
  exact congrArg (Ideal.div _) ((sumred_fused_apply (expV S) _ _ _ p a).trans
    (Finset.sum_congr rfl fun k _ => expV_apply S p k a))

/-- The attention of a block, index by index. -/
theorem pay1_apply (p : Fin 8) (n : Fin 1600) (a : Fin 8) :
    k0_pay1 (F := Ideal) x0 x1 x2 x3 (ix3 p n a) = rowSoftmax (blkScore x0 x1 x2 x3 p a) n := by
  rw [pay1_eq, softmaxV_apply]
  exact congrFun (congrArg rowSoftmax (funext fun n' => scoresV_apply x0 x1 x2 x3 p n' a)) n

/-- The stored attention: trailing axes swapped. -/
theorem pay3_apply (p : Fin 8) (a : Fin 8) (n : Fin 1600) :
    k0_pay3 (F := Ideal) x0 x1 x2 x3 (ix3 p a n) = rowSoftmax (blkScore x0 x1 x2 x3 p a) n := by
  unfold k0_pay3
  try dsimp only
  rw [swap_apply, pay1_apply]

/-- The stored attention weight: the attention summed over the hops. -/
theorem pay2_apply (p : Fin 8) (n : Fin 1600) :
    k0_pay2 (F := Ideal) x0 x1 x2 x3 (ix2 p n) = ∑ a : Fin 8, rowSoftmax (blkScore x0 x1 x2 x3 p a) n := by
  unfold k0_pay2
  try dsimp only
  rw [shapeCast_shapeCast]
  exact (sumred_hop_apply _ _ _ _ p n).trans (Finset.sum_congr rfl fun a _ => pay1_apply x0 x1 x2 x3 p n a)

end Cert.KernelIdeal.Body

end
-- ==== Proof.BodyBlock.lean ====
/-
  What one grid point stores is a block of the whole-array functions. A point handles eight consecutive samples from a
  base sample `r0`: if its node and neighbour blocks are rows `r0 … r0 + 7` of the node and neighbour arrays, and it
  holds the whole (scaled, transposed) weights and the whole (scaled) bias, then what it stores at `(p, a, n)` is the
  attention of sample `r0 + p` at hop `a`, position `n`, and at `(p, n)` that sample's attention weight at `n`.
-/
import proofs.«111529_j48395691491480_2_alg».proof.Proof.BodyValue

noncomputable section

namespace Cert.KernelIdeal.Body

open Cert.KernelIdeal Cert.KernelIdeal.Gen Cert.GuidedAttention Cert.RowSoftmax
open Idealize.ShloMosaic Idealize.ShloMosaic.ValueIdx
open scoped BigOperators

variable (x0 : Vec Ideal S8x50x128 .f32) (x1 : Vec Ideal S8x1600x128 .f32) (x2 : Vec Ideal S128x8 .f32) (x3 : Vec Ideal S8 .f32)
  (node : SNode.Idx → EReal) (nf : SNeigh.Idx → EReal) (wt : SWt.Idx → EReal) (bs : SBias.Idx → EReal)
  (r0 : Nat) (hr : r0 + 8 ≤ 128)

/-- Sample `r0 + p`. -/
def sample (p : Fin 8) : Fin 128 := ⟨r0 + p.val, by have := p.isLt; omega⟩

/-- The block's scores are the array's scores of the block's samples. -/
theorem blkScore_eq
    (h0 : ∀ (p : Fin 8) (s : Fin 50) (k : Fin 128), x0 (ix3 p s k) = node (ix3 (sample r0 hr p) s k))
    (h1 : ∀ (p : Fin 8) (n : Fin 1600) (k : Fin 128), x1 (ix3 p n k) = nf (ix3 (sample r0 hr p) n k))
    (h2 : ∀ (k : Fin 128) (a : Fin 8), x2 (ix2 k a) = wt (ix2 k a)) (h3 : ∀ a : Fin 8, x3 (ix1 a) = bs (ix1 a))
    (p : Fin 8) (a : Fin 8) :
    blkScore x0 x1 x2 x3 p a = scoreScaledWeights node nf wt bs (sample r0 hr p) a := by
  funext n
  unfold blkScore scoreScaledWeights guided
  simp only [h0, h1, h2, h3]

/-- The stored attention block. -/
theorem attn_block
    (h0 : ∀ (p : Fin 8) (s : Fin 50) (k : Fin 128), x0 (ix3 p s k) = node (ix3 (sample r0 hr p) s k))
    (h1 : ∀ (p : Fin 8) (n : Fin 1600) (k : Fin 128), x1 (ix3 p n k) = nf (ix3 (sample r0 hr p) n k))
    (h2 : ∀ (k : Fin 128) (a : Fin 8), x2 (ix2 k a) = wt (ix2 k a)) (h3 : ∀ a : Fin 8, x3 (ix1 a) = bs (ix1 a))
    (y : S8x8x1600.Idx) (i : SAttn.Idx) (e0 : (i 0).val = r0 + (y 0).val) (e1 : (i 1).val = (y 1).val)
    (e2 : (i 2).val = (y 2).val) :
    k0_pay3 (F := Ideal) x0 x1 x2 x3 y = attn (scoreScaledWeights node nf wt bs) i := by
  obtain ⟨p, a, n, rfl⟩ : ∃ (p : Fin 8) (a : Fin 8) (n : Fin 1600), y = ix3 p a n := ⟨y 0, y 1, y 2, eq_ix3 y⟩
  have hi : i = ix3 (sample r0 hr p) a n := by
    rw [eq_ix3 i]
    exact congr (congr (congrArg ix3 (Fin.ext e0)) (Fin.ext e1)) (Fin.ext e2)
  rw [hi, pay3_apply, blkScore_eq x0 x1 x2 x3 node nf wt bs r0 hr h0 h1 h2 h3 p a]
  rfl

/-- The stored attention-weight block. -/
theorem weight_block
    (h0 : ∀ (p : Fin 8) (s : Fin 50) (k : Fin 128), x0 (ix3 p s k) = node (ix3 (sample r0 hr p) s k))
    (h1 : ∀ (p : Fin 8) (n : Fin 1600) (k : Fin 128), x1 (ix3 p n k) = nf (ix3 (sample r0 hr p) n k))
    (h2 : ∀ (k : Fin 128) (a : Fin 8), x2 (ix2 k a) = wt (ix2 k a)) (h3 : ∀ a : Fin 8, x3 (ix1 a) = bs (ix1 a))
    (y : S8x1600.Idx) (i : SWeight.Idx) (e0 : (i 0).val = r0 + (y 0).val) (e1 : (i 1).val = (y 1).val) :
    k0_pay2 (F := Ideal) x0 x1 x2 x3 y = weightSum (attn (scoreScaledWeights node nf wt bs)) i := by
  obtain ⟨p, n, rfl⟩ : ∃ (p : Fin 8) (n : Fin 1600), y = ix2 p n := ⟨y 0, y 1, eq_ix2 y⟩
  have hi : i = ix2 (sample r0 hr p) n := by
    rw [eq_ix2 i]
    exact congr (congrArg ix2 (Fin.ext e0)) (Fin.ext e1)
  rw [hi, pay2_apply]
  unfold weightSum attn
  refine Finset.sum_congr rfl fun a _ => ?_
  rw [blkScore_eq x0 x1 x2 x3 node nf wt bs r0 hr h0 h1 h2 h3 p a]

end Cert.KernelIdeal.Body

end
-- ==== Proof.KernelArrays.lean ====
/-
  From blocks to arrays. The grid has sixteen points; point `t` handles samples `8 t … 8 t + 7`: its node, neighbour,
  attention and attention-weight blocks are those rows of their arrays, and it holds the whole scaled weights and bias.
  So what point `t` writes back is block `t` of the attention (and of the attention weight) of the arrays as the
  region finds them, and the sixteen blocks cover the arrays: sample `b` is in block `b / 8`.
-/
import proofs.«111529_j48395691491480_2_alg».proof.Proof.Gen.KernelIdeal.Frame
import proofs.«111529_j48395691491480_2_alg».proof.Proof.BodyBlock

set_option maxRecDepth 16384

noncomputable section

namespace Cert.KernelIdeal.Arrays

open Cert.KernelIdeal Cert.KernelIdeal.Gen Cert.KernelIdeal.Body Cert.GuidedAttention Cert.RowSoftmax
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the sample axis moves with the point, every other axis stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

theorem point_lt (t : Fin cfg0.N) : 8 * t.val + 8 ≤ 128 := by
  have h : t.val < 16 := Nat.lt_of_lt_of_eq t.isLt (show cfg0.N = 16 from N_0)
  omega

/-- The arrays as the region finds them, as functions of their indices. -/
abbrev nodeA (c : Dev nD) : SNode.Idx → EReal := V m c main_arg0
abbrev neighA (c : Dev nD) : SNeigh.Idx → EReal := V m c main_v9
abbrev wtA (c : Dev nD) : SWt.Idx → EReal := V m c main_v8
abbrev bsA (c : Dev nD) : SBias.Idx → EReal := V m c main_v7

/-- The attention of the arrays as the region finds them. -/
def attnA (c : Dev nD) : SAttn.Idx → EReal := attn (scoreScaledWeights (nodeA m c) (neighA m c) (wtA m c) (bsA m c))

theorem blk0 (c : Dev nD) (t : Fin cfg0.N) (p : Fin 8) (s : Fin 50) (k : Fin 128) :
    iblk m c 0 t (ix3 p s k) = nodeA m c (ix3 (sample (8 * t.val) (point_lt t) p) s k) := by
  obtain ⟨e0, e1, e2, -⟩ := idx_facts t
  show V m c main_arg0 (((cfg0.win 0).blk t).view.emb (ix3 p s k)) = V m c main_arg0 (ix3 (sample (8 * t.val) (point_lt t) p) s k)
  refine congrArg _ (funext fun a => Fin.ext ?_)
  match a with
  | ⟨0, _⟩ => show win0_0.index t (0 : Fin 3) * 8 + 1 * p.val = 8 * t.val + p.val; omega
  | ⟨1, _⟩ => show win0_0.index t (1 : Fin 3) * 50 + 1 * s.val = s.val; omega
  | ⟨2, _⟩ => show win0_0.index t (2 : Fin 3) * 128 + 1 * k.val = k.val; omega

theorem blk1 (c : Dev nD) (t : Fin cfg0.N) (p : Fin 8) (n : Fin 1600) (k : Fin 128) :
    iblk m c 1 t (ix3 p n k) = neighA m c (ix3 (sample (8 * t.val) (point_lt t) p) n k) := by
  obtain ⟨-, -, -, e0, e1, e2, -⟩ := idx_facts t
  show V m c main_v9 (((cfg0.win 1).blk t).view.emb (ix3 p n k)) = V m c main_v9 (ix3 (sample (8 * t.val) (point_lt t) p) n k)
  refine congrArg _ (funext fun a => Fin.ext ?_)
  match a with
  | ⟨0, _⟩ => show win0_1.index t (0 : Fin 3) * 8 + 1 * p.val = 8 * t.val + p.val; omega
  | ⟨1, _⟩ => show win0_1.index t (1 : Fin 3) * 1600 + 1 * n.val = n.val; omega
  | ⟨2, _⟩ => show win0_1.index t (2 : Fin 3) * 128 + 1 * k.val = k.val; omega

theorem blk2 (c : Dev nD) (t : Fin cfg0.N) (k : Fin 128) (a : Fin 8) :
    iblk m c 2 t (ix2 k a) = wtA m c (ix2 k a) := by
  obtain ⟨-, -, -, -, -, -, e0, e1, -⟩ := idx_facts t
  show V m c main_v8 (((cfg0.win 2).blk t).view.emb (ix2 k a)) = V m c main_v8 (ix2 k a)
  refine congrArg _ (funext fun b => Fin.ext ?_)
  match b with
  | ⟨0, _⟩ => show win0_2.index t (0 : Fin 2) * 128 + 1 * k.val = k.val; omega
  | ⟨1, _⟩ => show win0_2.index t (1 : Fin 2) * 8 + 1 * a.val = a.val; omega

theorem blk3 (c : Dev nD) (t : Fin cfg0.N) (a : Fin 8) :
    iblk m c 3 t (ix1 a) = bsA m c (ix1 a) := by
  obtain ⟨-, -, -, -, -, -, -, -, e0, -⟩ := idx_facts t
  show V m c main_v7 (((cfg0.win 3).blk t).view.emb (ix1 a)) = V m c main_v7 (ix1 a)
  refine congrArg _ (funext fun b => Fin.ext ?_)
  match b with
  | ⟨0, _⟩ => show win0_3.index t (0 : Fin 1) * 8 + 1 * a.val = a.val; omega

/-- WHAT POINT `t` WRITES BACK to the attention array is block `t` of the attention. -/
theorem flushed4_eq (c : Dev nD) (t : Fin cfg0.N) :
    (dats m 0 c).flushed 4 t = ((cfg0.win 4).blk t).view.read (Elt Ideal) (attnA m c) := by
  show (cfg0.win 4).cut (grid0.coords t) ((dats m 0 c).after 4 t) = _
  rw [after0_4]
  unfold out0_4
  rw [View.canon_unit_zero hz3]
  simp only [View.ld_unit_zero (S := S8x50x128) hz3, View.ld_unit_zero (S := S8x1600x128) hz3,
    View.ld_unit_zero (S := S128x8) hz2, View.ld_unit_zero (S := S8) hz1]
  obtain ⟨-, -, -, -, -, -, -, -, -, e0, e1, e2, -⟩ := idx_facts t
  funext j
  show k0_pay3 (F := Ideal) (iblk m c 0 t) (iblk m c 1 t) (iblk m c 2 t) (iblk m c 3 t) j = attnA m c (((cfg0.win 4).blk t).view.emb j)
  exact attn_block (iblk m c 0 t) (iblk m c 1 t) (iblk m c 2 t) (iblk m c 3 t) (nodeA m c) (neighA m c) (wtA m c) (bsA m c)
    (8 * t.val) (point_lt t) (blk0 m c t) (blk1 m c t) (blk2 m c t) (blk3 m c t) j (((cfg0.win 4).blk t).view.emb j)
    (by show win0_4.index t (0 : Fin 3) * 8 + 1 * (j 0).val = 8 * t.val + (j 0).val; omega)
    (by show win0_4.index t (1 : Fin 3) * 8 + 1 * (j 1).val = (j 1).val; omega)
    (by show win0_4.index t (2 : Fin 3) * 1600 + 1 * (j 2).val = (j 2).val; omega)

/-- WHAT POINT `t` WRITES BACK to the attention-weight array is block `t` of the attention summed over the hops. -/
theorem flushed5_eq (c : Dev nD) (t : Fin cfg0.N) :
    (dats m 0 c).flushed 5 t = ((cfg0.win 5).blk t).view.read (Elt Ideal) (weightSum (attnA m c)) := by
  show (cfg0.win 5).cut (grid0.coords t) ((dats m 0 c).after 5 t) = _
  rw [after0_5]
  unfold out0_5
  rw [View.canon_unit_zero hz2]
  simp only [View.ld_unit_zero (S := S8x50x128) hz3, View.ld_unit_zero (S := S8x1600x128) hz3,
    View.ld_unit_zero (S := S128x8) hz2, View.ld_unit_zero (S := S8) hz1]
  obtain ⟨-, -, -, -, -, -, -, -, -, -, -, -, e0, e1⟩ := idx_facts t
  funext j
  show k0_pay2 (F := Ideal) (iblk m c 0 t) (iblk m c 1 t) (iblk m c 2 t) (iblk m c 3 t) j = weightSum (attnA m c) (((cfg0.win 5).blk t).view.emb j)
  exact weight_block (iblk m c 0 t) (iblk m c 1 t) (iblk m c 2 t) (iblk m c 3 t) (nodeA m c) (neighA m c) (wtA m c) (bsA m c)
    (8 * t.val) (point_lt t) (blk0 m c t) (blk1 m c t) (blk2 m c t) (blk3 m c t) j (((cfg0.win 5).blk t).view.emb j)
    (by show win0_5.index t (0 : Fin 2) * 8 + 1 * (j 0).val = 8 * t.val + (j 0).val; omega)
    (by show win0_5.index t (1 : Fin 2) * 1600 + 1 * (j 1).val = (j 1).val; omega)

/-- An index of the attention array is in point `t`'s block iff each coordinate is in the block's range. -/
theorem mem_blk4 (t : Fin cfg0.N) (i : S128x8x1600.Idx) :
    i ∈ ((cfg0.win 4).blk t).view.set ↔ ∀ a : Fin 3, win0_4.index t a * S8x8x1600.size a ≤ (i a).val ∧ (i a).val < win0_4.index t a * S8x8x1600.size a + S8x8x1600.size a := by
  show i ∈ ((View.whole main_v10_0).slice (win0_4.rect t)).set ↔ _
  rw [View.set_slice_whole, Rect.mem_set_unit]
  exact Iff.rfl

theorem mem_blk5 (t : Fin cfg0.N) (i : S128x1600.Idx) :
    i ∈ ((cfg0.win 5).blk t).view.set ↔ ∀ a : Fin 2, win0_5.index t a * S8x1600.size a ≤ (i a).val ∧ (i a).val < win0_5.index t a * S8x1600.size a + S8x1600.size a := by
  show i ∈ ((View.whole main_v10_1).slice (win0_5.rect t)).set ↔ _
  rw [View.set_slice_whole, Rect.mem_set_unit]
  exact Iff.rfl

/-- The point of a sample: `b / 8`. -/
def pointOf (b : Nat) (hb : b < 128) : Fin cfg0.N := ⟨b / 8, by rw [show cfg0.N = 16 from N_0]; omega⟩

theorem cover4 (i : S128x8x1600.Idx) : ∃ t : Fin cfg0.N, (cfg0.win 4).flush t = true ∧ i ∈ ((cfg0.win 4).blk t).view.set := by
  have hi0 : (i 0).val < 128 := (i 0).isLt
  have hi1 : (i 1).val < 8 := (i 1).isLt
  have hi2 : (i 2).val < 1600 := (i 2).isLt
  refine ⟨pointOf (i 0).val hi0, flush0_4 _, ?_⟩
  obtain ⟨-, -, -, -, -, -, -, -, -, e0, e1, e2, -⟩ := idx_facts (pointOf (i 0).val hi0)
  have ht : (pointOf (i 0).val hi0).val = (i 0).val / 8 := rfl
  rw [mem_blk4]
  intro a
  match a with
  | ⟨0, _⟩ => show win0_4.index _ (0 : Fin 3) * 8 ≤ (i 0).val ∧ (i 0).val < win0_4.index _ (0 : Fin 3) * 8 + 8; omega
  | ⟨1, _⟩ => show win0_4.index _ (1 : Fin 3) * 8 ≤ (i 1).val ∧ (i 1).val < win0_4.index _ (1 : Fin 3) * 8 + 8; omega
  | ⟨2, _⟩ => show win0_4.index _ (2 : Fin 3) * 1600 ≤ (i 2).val ∧ (i 2).val < win0_4.index _ (2 : Fin 3) * 1600 + 1600; omega

theorem cover5 (i : S128x1600.Idx) : ∃ t : Fin cfg0.N, (cfg0.win 5).flush t = true ∧ i ∈ ((cfg0.win 5).blk t).view.set := by
  have hi0 : (i 0).val < 128 := (i 0).isLt
  have hi1 : (i 1).val < 1600 := (i 1).isLt
  refine ⟨pointOf (i 0).val hi0, flush0_5 _, ?_⟩
  obtain ⟨-, -, -, -, -, -, -, -, -, -, -, -, e0, e1⟩ := idx_facts (pointOf (i 0).val hi0)
  have ht : (pointOf (i 0).val hi0).val = (i 0).val / 8 := rfl
  rw [mem_blk5]
  intro a
  match a with
  | ⟨0, _⟩ => show win0_5.index _ (0 : Fin 2) * 8 ≤ (i 0).val ∧ (i 0).val < win0_5.index _ (0 : Fin 2) * 8 + 8; omega
  | ⟨1, _⟩ => show win0_5.index _ (1 : Fin 2) * 1600 ≤ (i 1).val ∧ (i 1).val < win0_5.index _ (1 : Fin 2) * 1600 + 1600; omega

/-- THE ATTENTION ARRAY after the run. -/
theorem final4 (c : Dev nD) : (dats m 0 c).arrAt 4 cfg0.N = attnA m c :=
  (dats m 0 c).arrAt_eq_of_cover 4 (attnA m c) (fun t _ => flushed4_eq m c t) cover4

/-- THE ATTENTION-WEIGHT ARRAY after the run. -/
theorem final5 (c : Dev nD) : (dats m 0 c).arrAt 5 cfg0.N = weightSum (attnA m c) :=
  (dats m 0 c).arrAt_eq_of_cover 5 (weightSum (attnA m c)) (fun t _ => flushed5_eq m c t) cover5

end Cert.KernelIdeal.Arrays

end
-- ==== Proof.KernelHost.lean ====
/-
  The host side of the kernel's program. Before the region: the scale is the square root (the power one half) of the
  first neighbour count read as a float; the weights are divided by it and transposed, the bias is divided by it, and the
  neighbour array is reshaped to fuse its neighbour and time axes. After the region the attention-weight array is
  reshaped back to split the fused axis. With what the region leaves in its arrays (the attention and its sum over the
  hops), this names every result of the run as a function of the argument arrays.
-/
import proofs.«111529_j48395691491480_2_alg».proof.Proof.KernelArrays
import Idealize.ShloMosaic.Lib.StableHlo.Run
import Idealize.ShloMosaic.Lib.IdealHost

set_option maxRecDepth 16384

noncomputable section

namespace Cert.KernelIdeal.Arrays

open Cert.KernelIdeal Cert.KernelIdeal.Gen Cert.KernelIdeal.Body Cert.GuidedAttention Cert.RowSoftmax
open Idealize.ShloMosaic Idealize.ShloMosaic.ValueIdx Idealize.ShloMosaic.TcCoe Idealize.SL.Sem Idealize.ShloMosaic.StableHlo
open Idealize.ShloMosaic.Pipeline (Dat Cfg Window)

variable (m : (ℓ : Loc nD τ sig) → Buf (Elt Ideal) ℓ)

/-- The scale: the first neighbour count, as a float, to the power one half. -/
def scaleOf (x2 : IVec S128 32) : FVec Ideal S_ .f32 :=
  Host.powf (sitofp .f32 (shapeCast S_ (extractStridedSlice S1 ![0] x2 slices_S128_S1_0) shapeCasts_S1_S_))
    (constant S_ .f32 0x3F000000#32)

/-- The neighbour array as the region finds it: the argument with its neighbour and time axes fused. -/
theorem neigh_entry (c : Dev nD) :
    (V m c main_v9 : S128x1600x128.Idx → EReal)
      = shapeCast S128x1600x128 (m ((c : Thread nD τ).loc main_arg1)) shapeCasts_S128x32x50x128_S128x1600x128 := by
  show StableHlo.after hostOps0 (fun b => m (c, b)) (Proc.devRef .tc main_v9) = _
  after_results
  rfl

/-- The weights as the region finds them: divided by the scale, transposed. -/
theorem wt_entry (c : Dev nD) :
    (V m c main_v8 : S128x8.Idx → EReal)
      = transpose S128x8 [1, 0] (Host.divf (m ((c : Thread nD τ).loc main_arg3))
          (broadcastInDim S8x128 ![] bcast_S_S8x128 (scaleOf (m ((c : Thread nD τ).loc main_arg2))))) transposes_S8x128_S128x8_1_0 := by
  show StableHlo.after hostOps0 (fun b => m (c, b)) (Proc.devRef .tc main_v8) = _
  after_results
  rfl

/-- The bias as the region finds it: divided by the scale. -/
theorem bs_entry (c : Dev nD) :
    (V m c main_v7 : S8.Idx → EReal)
      = Host.divf (m ((c : Thread nD τ).loc main_arg4)) (broadcastInDim S8 ![] bcast_S_S8 (scaleOf (m ((c : Thread nD τ).loc main_arg2)))) := by
  show StableHlo.after hostOps0 (fun b => m (c, b)) (Proc.devRef .tc main_v7) = _
  after_results
  rfl

/-- The scaled, transposed weights, index by index. -/
theorem wt_apply (c : Dev nD) :
    wtA m c = fun j => Ideal.div ((m ((c : Thread nD τ).loc main_arg3) : S8x128.Idx → EReal) (ix2 (j 1) (j 0)))
      (scaleOf (m ((c : Thread nD τ).loc main_arg2)) ix0) := by
  funext j
  show (V m c main_v8 : S128x8.Idx → EReal) j = _
  rw [wt_entry, transpose_apply [1, 0] _ transposes_S8x128_S128x8_1_0 j (ix2 (j 1) (j 0)) (fun b => match b with
    | ⟨0, _⟩ => rfl
    | ⟨1, _⟩ => rfl)]
  rw [hostDivf_apply, broadcastInDim_scalar_apply]

/-- The scaled bias, index by index. -/
theorem bs_apply (c : Dev nD) :
    bsA m c = fun j => Ideal.div ((m ((c : Thread nD τ).loc main_arg4) : S8.Idx → EReal) j)
      (scaleOf (m ((c : Thread nD τ).loc main_arg2)) ix0) := by
  funext j
  show (V m c main_v7 : S8.Idx → EReal) j = _
  rw [bs_entry, hostDivf_apply, broadcastInDim_scalar_apply]

/-- The reshape after the region: the first result is the attention-weight array with its fused axis split. -/
theorem tail_weight (c : Dev nD) :
    Pipeline.afterTail₀ cfgs (dats m) 0 (V0 m) [hostOps1] c main_v11
      = shapeCast S128x32x50 (weightSum (attnA m c)) shapeCasts_S128x1600_S128x32x50 := by
  unfold Pipeline.afterTail₀
  show StableHlo.after hostOps1 _ (Proc.devRef .tc main_v11) = _
  after_results
  exact congrArg (fun x => shapeCast S128x32x50 x shapeCasts_S128x1600_S128x32x50)
    ((Pipeline.withArrays_arr spec0 launch0.win.arr_inj c _ _ 5).trans (final5 m c))

variable (ρ : Dev nD → PrngReg)

/-- THE RUN, READ: every weakly fair execution terminates with the three results at the attention weight (fused axis
    split), the attention, and the reshaped neighbour array, all of the arrays as the region finds them; the arguments
    unchanged. -/
theorem run : θ_run defs (onTc (τ := τ) (main (F := Ideal))) ⟨m, fun _ => 0, ρ⟩ (fun r => ∀ c : Dev nD,
      r.2.mem ((c.tc : Thread nD τ).loc main_v11) = shapeCast S128x32x50 (weightSum (attnA m c)) shapeCasts_S128x1600_S128x32x50
      ∧ r.2.mem ((c.tc : Thread nD τ).loc main_v10_0) = attnA m c
      ∧ r.2.mem ((c.tc : Thread nD τ).loc main_v9) = V m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v11 (Pipeline.mem_restRefs_of main_v11 (by decide) (by decide))).trans (tail_weight m c),
      ((h c).1 4).trans (final4 m c),
      ((h c).1 1).trans (((dats m 0 c).arrAt_in 1 rfl _).trans (A_eq m c 1)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Arrays

end
-- ==== Proof.RefValue.lean ====
/-
  The reference program's two results, read as whole-array functions of its arguments.

  The attention is the softmax, along the fused neighbour-time axis, of the scores scaled after the projection; the
  attention weight of a position is the sum of the attentions of the eight hops there.
-/
import proofs.«111529_j48395691491480_2_alg».proof.Proof.Gen.ReferenceIdeal.Read
import proofs.«111529_j48395691491480_2_alg».proof.Proof.Spec
import Idealize.ShloMosaic.Lib.ValueIdx
import Idealize.ShloMosaic.Lib.ValueIdxRank6
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.GuidedAttention Cert.RowSoftmax
open Idealize.ShloMosaic Idealize.ShloMosaic.ValueIdx
open scoped BigOperators

variable (x0 : (⟨S128x50x128, .f32⟩ : BufTy).Contents (Elt Ideal))
  (x1 : (⟨S128x32x50x128, .f32⟩ : BufTy).Contents (Elt Ideal))
  (x2 : (⟨S128, .i32⟩ : BufTy).Contents (Elt Ideal))
  (x3 : (⟨S8x128, .f32⟩ : BufTy).Contents (Elt Ideal))
  (x4 : (⟨S8, .f32⟩ : BufTy).Contents (Elt Ideal))

/-- The rank-6 index over position `(b, n, k)` of the fused array: neighbour `n / 50`, time step `n % 50`. -/
abbrev tile6 (b : Fin 128) (n : Fin 1600) (k : Fin 128) : S1x128x32x50x1x128.Idx :=
  ix6 (⟨0, Nat.one_pos⟩ : Fin 1) b (⟨n.val / 50, by have := n.isLt; omega⟩ : Fin 32) (tstep n) (⟨0, Nat.one_pos⟩ : Fin 1) k

/-- The node sequence tiled over the 32 neighbours: position `n` of the fused axis reads the node at time step
    `n % 50`. Both reshapes keep the row-major position, and the broadcast between them forgets the neighbour. -/
theorem val_main_v3_tiled (b : Fin 128) (n : Fin 1600) (k : Fin 128) :
    val_main_v3 (F := Ideal) x0 (ix3 b n k) = x0 (ix3 b (tstep n) k) := by
  have h1 : (S1x128x32x50x1x128.rowMajor (tile6 b n k)).val = (S128x1600x128.rowMajor (ix3 b n k)).val := by
    rewrite [Shape.rowMajor_val_six, Shape.rowMajor_val_three]
    have hn : n.val < 1600 := n.isLt
    show ((((0 * 128 + b.val) * 32 + n.val / 50) * 50 + n.val % 50) * 1 + 0) * 128 + k.val = (b.val * 1600 + n.val) * 128 + k.val
    omega
  have h2 : (S128x50x128.rowMajor (ix3 b (tstep n) k)).val = (S1x128x1x50x1x128.rowMajor (idx_main_v2 (tile6 b n k))).val := by
    rewrite [Shape.rowMajor_val_three, Shape.rowMajor_val_six]
    show (b.val * 50 + n.val % 50) * 128 + k.val = ((((0 * 128 + b.val) * 1 + 0) * 50 + n.val % 50) * 1 + 0) * 128 + k.val
    omega
  unfold val_main_v3
  rw [shapeCast_apply (val_main_v2 (F := Ideal) x0) shapeCasts_S1x128x32x50x1x128_S128x1600x128 (ix3 b n k) (tile6 b n k) h1,
    val_main_v2_apply]
  unfold val_main_v1
  exact shapeCast_apply x0 shapeCasts_S128x50x128_S1x128x1x50x1x128 (idx_main_v2 (tile6 b n k)) (ix3 b (tstep n) k) h2

/-- The reference's score: the projection of the guided product plus the bias, divided by the scale — the rank-0
    array read at its one index. -/
abbrev refScore : Fin 128 → Fin 8 → Fin 1600 → EReal :=
  scoreScaledAfter x0 (Read.val_main_v0 (F := Ideal) x1) x3 x4 (Read.val_main_v12 (F := Ideal) x2 ix0)

/-- The scaled score at sample `b`, hop `a`, position `n`: the transposed projection plus the broadcast bias, over
    the broadcast scale. -/
theorem val_main_v15_score (b : Fin 128) (a : Fin 8) (n : Fin 1600) :
    val_main_v15 (F := Ideal) x0 x1 x2 x3 x4 (ix3 b a n) = refScore x0 x1 x2 x3 x4 b a n := by
  rw [val_main_v15_apply, val_main_v14_apply, val_main_v13_apply, val_main_v8_apply, val_main_v7_apply,
    val_main_v6_apply, val_main_v5_apply]
  show Ideal.div (_ + _) _ = Ideal.div (_ + _) _
  refine congrArg₂ Ideal.div (congrArg₂ (· + ·) (Finset.sum_congr rfl fun k _ => ?_) (congrArg x4 ?_)) (congrArg _ ?_)
  · have el : lidx_main_v5 (idx_main_v13 (ix3 b a n)) k = ix3 b n k :=
      funext fun c => by match c with | ⟨0, _⟩ => rfl | ⟨1, _⟩ => rfl | ⟨2, _⟩ => rfl
    have er : ridx_main_v5 (idx_main_v13 (ix3 b a n)) k = ix2 a k :=
      funext fun c => by match c with | ⟨0, _⟩ => rfl | ⟨1, _⟩ => rfl
    rw [el, er, val_main_v4_apply, val_main_v3_tiled]
    rfl
  · exact funext fun c => by match c with | ⟨0, _⟩ => rfl
  · exact funext fun c => c.elim0

/-- The bit pattern of minus infinity is the bottom of the extended reals. -/
theorem ofBits_neg_inf : Ideal.ofBits .f32 0xFF800000#32 = ⊥ := by simp [Ideal.ofBits, Ideal.ieee]

/-- The row's maximum: the fold of `max` from `⊥` over the fused axis, and `max` with `⊥` once more changes nothing. -/
theorem val_main_v18_rowMax (b : Fin 128) (a : Fin 8) :
    val_main_v18 (F := Ideal) x0 x1 x2 x3 x4 (ix2 b a) = rowMax (refScore x0 x1 x2 x3 x4 b a) := by
  have hred : S128x8x1600.Reduces [2] S128x8 := by decide
  have hf : (val_main_v15 (F := Ideal) x0 x1 x2 x3 x4 ∘ hred.lift (ix2 b a)) = refScore x0 x1 x2 x3 x4 b a := by
    funext n
    rw [← val_main_v15_score x0 x1 x2 x3 x4 b a n]
    exact congrArg (val_main_v15 (F := Ideal) x0 x1 x2 x3 x4)
      (funext fun c => Fin.ext (by match c with | ⟨0, _⟩ => rfl | ⟨1, _⟩ => rfl | ⟨2, _⟩ => rfl))
  rw [val_main_v18_apply, val_main_v17_apply, val_main_cst_1_apply]
  unfold val_main_v16
  have hfold : Host.reduce FloatOps.maximumf (val_main_v15 (F := Ideal) x0 x1 x2 x3 x4) (val_main_cst_0 (F := Ideal))
        reducesTo_S128x8x1600_S128x8_d2 h_S_ (ix2 b a)
      = (Finset.univ : Finset (Fin 1600)).fold max (Ideal.ofBits .f32 0xFF800000#32)
          (val_main_v15 (F := Ideal) x0 x1 x2 x3 x4 ∘ hred.lift (ix2 b a)) :=
    Host.reduce_eq_fold_single _ _ _ _ hred _ _
  rw [hfold, hf]
  show max (Ideal.ofBits .f32 0xFF800000#32)
    ((Finset.univ : Finset (Fin 1600)).fold max (Ideal.ofBits .f32 0xFF800000#32) (refScore x0 x1 x2 x3 x4 b a)) = _
  rw [ofBits_neg_inf, max_eq_right bot_le]
  rfl

/-- The exponential of the score less its row's maximum. -/
theorem val_main_v22_rowExp (b : Fin 128) (a : Fin 8) (n : Fin 1600) :
    val_main_v22 (F := Ideal) x0 x1 x2 x3 x4 (ix3 b a n) = rowExp (refScore x0 x1 x2 x3 x4 b a) n := by
  have e : idx_main_v19 (idx_main_v20 (ix3 b a n)) = ix2 b a :=
    funext fun c => by match c with | ⟨0, _⟩ => rfl | ⟨1, _⟩ => rfl
  rw [val_main_v22_apply, val_main_v21_apply, val_main_v20_apply, val_main_v19_apply, val_main_v15_score, e,
    val_main_v18_rowMax]
  rfl

/-- The row's sum of exponentials: the sum starts from the zero pattern, the extended real zero. -/
theorem val_main_v25_sum (b : Fin 128) (a : Fin 8) (n : Fin 1600) :
    val_main_v25 (F := Ideal) x0 x1 x2 x3 x4 (ix3 b a n) = ∑ k : Fin 1600, rowExp (refScore x0 x1 x2 x3 x4 b a) k := by
  rw [val_main_v25_apply, val_main_v24_apply, val_main_v23_apply, val_main_cst_2_apply]
  show Ideal.ofBits .f32 0x00000000#32 + _ = _
  rw [Ideal.ofBits_zero_f32, zero_add]
  refine Finset.sum_congr rfl fun k _ => ?_
  rw [← val_main_v22_rowExp x0 x1 x2 x3 x4 b a k]
  exact congrArg (val_main_v22 (F := Ideal) x0 x1 x2 x3 x4)
    (funext fun c => by match c with | ⟨0, _⟩ => rfl | ⟨1, _⟩ => rfl | ⟨2, _⟩ => rfl)

/-- The reference's attention is the softmax, along the fused axis, of the scores scaled after the projection. -/
theorem attn_eq :
    Read.val_main_v26 (F := Ideal) x0 x1 x2 x3 x4
      = attn (scoreScaledAfter x0 (Read.val_main_v0 (F := Ideal) x1) x3 x4 (Read.val_main_v12 (F := Ideal) x2 ix0)) := by
  funext i
  obtain ⟨b, a, n, rfl⟩ : ∃ b a n, i = ix3 b a n := ⟨i 0, i 1, i 2, eq_ix3 i⟩
  rw [val_main_v26_apply, val_main_v22_rowExp, val_main_v25_sum]
  rfl

/-- The attention weight of a position is the sum, over the eight hops, of the attention there: the sum starts from
    the zero pattern, which is the extended real zero. -/
theorem weight_eq :
    Read.val_main_v27 (F := Ideal) x0 x1 x2 x3 x4 = weightSum (Read.val_main_v26 (F := Ideal) x0 x1 x2 x3 x4) := by
  funext i
  rw [val_main_v27_apply, val_main_cst_3_apply]
  show Ideal.ofBits .f32 0x00000000#32 + _ = _
  rw [Ideal.ofBits_zero_f32, zero_add]
  unfold weightSum
  refine Finset.sum_congr rfl fun k _ => ?_
  exact congrArg _ (funext fun a => Fin.ext (by match a with | ⟨0, _⟩ => rfl | ⟨1, _⟩ => rfl | ⟨2, _⟩ => rfl))

end Cert.ReferenceIdeal.RefValue

end
-- ==== Proof.Finite.lean ====
/-
  The precondition says every float argument array holds only finite numbers: for each of the four arrays it takes the
  absolute value of every element, compares it strictly below positive infinity, and folds the answers by `and` over
  every axis; the four resulting bits are and-ed together and the claim's hypothesis is that the last bit is 1.

  Read back: a conjunction of bits that is 1 has every bit 1; a fold by `and` from 1 that ends at 1 met only 1s, so the
  comparison holds at every position of every array; on the extended reals the absolute value is `max x (-x)`, the
  comparison is the strict order, and the pattern of positive infinity denotes `⊤`. An extended real with
  `max x (-x) < ⊤` is neither `⊤` (the maximum would be `⊤`) nor `⊥` (its negation is `⊤`): it is a real number.
-/
import proofs.«111529_j48395691491480_2_alg».proof.Defs
import proofs.«111529_j48395691491480_2_alg».proof.Proof.Gen.Pre_finite_inputs
import proofs.«111529_j48395691491480_2_alg».proof.Proof.RowSoftmax
import Idealize.ShloMosaic.Lib.ReduceAll
import Idealize.ShloMosaic.Lib.ValueIdx
import Idealize.ShloMosaic.Lib.IdealHost
import Idealize.ShloMosaic.PureOps.Ideal.Laws

noncomputable section

namespace Cert.Finite

open Idealize.ShloMosaic Idealize.ShloMosaic.ValueIdx Idealize.SL.Sem Cert.RowSoftmax

/-- An extended real whose absolute value `max x (-x)` is below `⊤` is a real number: at `⊤` the maximum is `⊤`, at
    `⊥` the negation is `⊤`, and `⊤` is not strictly below itself. -/
theorem isReal_of_abs_lt_top (x : EReal) (h : max x (-x) < ⊤) : IsReal x := by
  induction x using EReal.rec with
  | bot => exact absurd h (by simp)
  | top => exact absurd h (by simp)
  | coe r => exact ⟨r, rfl⟩

/-- The single-precision pattern of positive infinity (exponent all ones, mantissa zero) denotes `⊤`. -/
theorem inf_pattern : Ideal.ofBits .f32 0x7F800000#32 = (⊤ : EReal) := by
  simp [Ideal.ofBits, Ideal.ieee]

/-- A one-bit word made from a Boolean is 1 exactly when the Boolean is true. -/
theorem ofBool_eq_one (b : Bool) : BitVec.ofBool b = 1#1 ↔ b = true := by cases b <;> decide

/-- The element test `|x| < +inf`, answered 1, says `x` is a real number: on the extended reals the absolute value is
    `max x (-x)` and the ordered comparison is the strict order. -/
theorem isReal_of_test (x : Ideal .f32)
    (h : FloatOps.cmpf .olt (FloatOps.hostAbsf x) (FloatOps.ofBits .f32 0x7F800000#32 : Ideal .f32) = 1#1) : IsReal x := by
  have h' : Ideal.cmp .olt (max x (-x)) (Ideal.ofBits .f32 0x7F800000#32) = 1#1 := h
  rw [inf_pattern] at h'
  unfold Ideal.cmp at h'
  rw [ofBool_eq_one] at h'
  exact isReal_of_abs_lt_top x (of_decide_eq_true h')

/-- A shape of rank zero has one index. -/
instance : Subsingleton Cert.Pre_finite_inputs.S_.Idx := ⟨fun a b => funext fun d => d.elim0⟩

/-- One array's test, for an array of any shape: if the conjunction over all positions of `|x i| < +inf` is 1, every
    `x i` is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1)
    (i : s.Idx) : IsReal (x i) :=
  isReal_of_test (x i) (Host.reduce_andi_all _ _ hr hu ix0 e i)

/-- The precondition decoded: on every device, every element of each of the four float argument arrays is a real
    number. The four bits of the conjunction are split, and each is one array's test. -/
theorem inputs_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread _ _).loc Cert.KernelIdeal.main_arg1) i))
    ∧ (∀ i, IsReal (m ((c.tc : Thread _ _).loc Cert.KernelIdeal.main_arg3) i))
    ∧ (∀ i, IsReal (m ((c.tc : Thread _ _).loc Cert.KernelIdeal.main_arg4) i)) := by
  have e := congrFun (h c) ix0
  dsimp only [Cert.Pre_finite_inputs.fn, Cert.Pre_finite_inputs.fn_part1] at e
  dsimp only [andi] at e
  rw [IntOp.andi_eq_one, IntOp.andi_eq_one, IntOp.andi_eq_one] at e
  obtain ⟨⟨⟨e0, e1⟩, e3⟩, e4⟩ := e
  exact ⟨fun i => all_real _ _ _ _ e0 i, fun i => all_real _ _ _ _ e1 i, fun i => all_real _ _ _ _ e3 i,
    fun i => all_real _ _ _ _ e4 i⟩

end Cert.Finite

end
-- ==== Proof.Bridge.lean ====
/-
  The two programs compute one attention. The kernel's program divides the weights and the bias by the scale before
  the projection, the reference divides the scores after it; both then take the softmax along the fused axis. For
  finite inputs the attentions agree at every scale (Spec.lean `attn_scaled`): off zero the scores themselves agree,
  and at a zero scale — which a neighbour count that is zero or negative gives — every score on both sides is infinite
  and both softmaxes are `⊥` everywhere. The scale is the same term of the neighbour counts in both programs, and the
  fused neighbour array is the same reshape of the same argument.
-/
import proofs.«111529_j48395691491480_2_alg».proof.Proof.KernelHost
import proofs.«111529_j48395691491480_2_alg».proof.Proof.RefValue
import proofs.«111529_j48395691491480_2_alg».proof.Proof.Finite

set_option maxRecDepth 16384

noncomputable section

namespace Cert.Bridge

open Cert.KernelIdeal Cert.KernelIdeal.Gen Cert.KernelIdeal.Arrays Cert.GuidedAttention Cert.RowSoftmax
open Idealize.ShloMosaic Idealize.ShloMosaic.ValueIdx Idealize.ShloMosaic.TcCoe Idealize.SL.Sem

/-- The scale is one term of the neighbour counts in both programs. -/
theorem scale_eq (x2 : IVec S128 32) : scaleOf x2 = Cert.ReferenceIdeal.Read.val_main_v12 (F := Ideal) x2 := rfl

/-- A reshape of an array of real numbers holds real numbers. -/
theorem isReal_shapeCast {s t : Shape} (x : s.Idx → EReal) (h : s.ShapeCasts t) (hx : ∀ i, IsReal (x i)) (j : t.Idx) :
    IsReal (shapeCast t x h j) := by
  unfold shapeCast
  exact hx _

/-- The attention of the kernel's program is the reference's: the softmax of the scores scaled after the projection. -/
theorem attn_bridge [hPre : Cert.Pre_finite_inputs.Facts] (m : (ℓ : Loc nD τ sig) → Buf (Elt Ideal) ℓ)
    (hpre : Cert.Pre_KernelIdeal m) (c : Dev nD) :
    attnA m c = attn (scoreScaledAfter (m ((c.tc : Thread nD τ).loc main_arg0))
      (Cert.ReferenceIdeal.Read.val_main_v0 (F := Ideal) (m ((c.tc : Thread nD τ).loc main_arg1)))
      (m ((c.tc : Thread nD τ).loc main_arg3)) (m ((c.tc : Thread nD τ).loc main_arg4))
      (Cert.ReferenceIdeal.Read.val_main_v12 (F := Ideal) (m ((c.tc : Thread nD τ).loc main_arg2)) ix0)) := by
  obtain ⟨h0, h1, h3, h4⟩ := Cert.Finite.inputs_real m hpre c
  unfold attnA
  rw [wt_apply, bs_apply, ← scale_eq]
  have en : nodeA m c = m ((c.tc : Thread nD τ).loc main_arg0) := V_main_arg0 m c
  have ef : neighA m c = Cert.ReferenceIdeal.Read.val_main_v0 (F := Ideal) (m ((c.tc : Thread nD τ).loc main_arg1)) :=
    neigh_entry m c
  rw [en, ef]
  exact attn_scaled _ _ _ _ _ h0 (fun i => isReal_shapeCast _ _ h1 i) h3 h4

end Cert.Bridge

end
-- ==== Proof.lean ====
/-
  The proof of `Cert.Claim`: the three frames, the (empty) ledger, and the equality of the two idealized programs'
  results as extended reals.

  The kernel's program scales the weights and the bias by `s = (neighbour count 0) ^ (1/2)` on the host, then per block of
  eight samples forms the guided product `neigh · node` (the node sequence tiled over the 32 neighbours), projects it on
  the eight hops, adds the bias, takes the softmax along the fused neighbour-time axis, and stores the attention and its
  sum over the hops; the reference projects first, divides the scores by `s`, and takes the same softmax.

  The frames of the two kernel programs and the reference's run are the generated modules'. Beside them: the body's value
  index by index (Proof/BodyLayout, BodyReduce, BodyValue, BodyBlock); the arrays after the run, block `t` holding samples
  `8 t … 8 t + 7` (Proof/KernelArrays, KernelHost); the reference's stages read as the same functions (Proof/RefValue); the
  precondition decoded to "every input entry is a real number" (Proof/Finite); and the law that joins the two programs
  (Proof/RowSoftmax, Spec, Bridge): for finite data the attentions agree at EVERY scale — equal scores off zero, and at
  a zero scale (a first neighbour count that is zero or negative) all scores infinite and both softmaxes `⊥` everywhere.
-/
import proofs.«111529_j48395691491480_2_alg».proof.Defs
import proofs.«111529_j48395691491480_2_alg».proof.Proof.Gen.Kernel
import proofs.«111529_j48395691491480_2_alg».proof.Proof.Gen.Kernel.Frame
import proofs.«111529_j48395691491480_2_alg».proof.Proof.Gen.KernelIdeal
import proofs.«111529_j48395691491480_2_alg».proof.Proof.Gen.KernelIdeal.Frame
import proofs.«111529_j48395691491480_2_alg».proof.Proof.Gen.ReferenceIdeal
import proofs.«111529_j48395691491480_2_alg».proof.Proof.Gen.Pre_finite_inputs
import proofs.«111529_j48395691491480_2_alg».proof.Proof.Gen.ReferenceIdeal.Run
import proofs.«111529_j48395691491480_2_alg».proof.Proof.Gen.ReferenceIdeal.Read
import proofs.«111529_j48395691491480_2_alg».proof.Proof.Bridge
import Idealize.ShloMosaic.Adequacy
import Idealize.ShloMosaic.Init

set_option maxRecDepth 16384

noncomputable section

namespace Cert.Proof

open Idealize.ShloMosaic Idealize.ShloMosaic.ValueIdx Idealize.SL.Sem Cert.GuidedAttention

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- Both idealized programs end with the attention weight (fused axis split), the attention, and the fused neighbour
    array of arguments that agree. -/
theorem algebraic : Cert.algebraic_KernelIdeal_ReferenceIdeal := by
  intro m ρ m' ρ' hpre hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨a0, a1, a2, a3, a4⟩ := hagree c
  obtain ⟨r0, r1, r2, rest⟩ := h c
  have e26 : Cert.ReferenceIdeal.Value.res_main_v26 m' c = Cert.KernelIdeal.Arrays.attnA m c := by
    rw [Cert.ReferenceIdeal.Read.val_main_v26_eq, a0, a1, a2, a3, a4, Cert.ReferenceIdeal.RefValue.attn_eq]
    exact (Cert.Bridge.attn_bridge m hpre c).symm
  refine ⟨r0.trans ?_, r1.trans e26, r2.trans ?_, rest⟩
  · rw [Cert.ReferenceIdeal.Read.val_main_v28_eq]
    unfold Cert.ReferenceIdeal.Read.val_main_v28
    rw [Cert.ReferenceIdeal.RefValue.weight_eq, ← Cert.ReferenceIdeal.Read.val_main_v26_eq, e26]
  · rw [a1]
    exact (Cert.KernelIdeal.Arrays.neigh_entry m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
